-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S640000 : Shape := ⟨1, ![640000]⟩
abbrev S128x128 : Shape := ⟨2, ![128, 128]⟩
abbrev S128 : Shape := ⟨1, ![128]⟩
abbrev S256x2 : Shape := ⟨2, ![256, 2]⟩
abbrev S2 : Shape := ⟨1, ![2]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x2 : S_.BroadcastsInDim S256x2 (![] : Fin 0 → Fin S256x2.rank)
  reducesTo_S256x2_S_d0_1 : S256x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg9 : FVec F S256x2 .f32) (main_arg10 : FVec F S2 .f32) (main_v33 : IVec S_ 1) : IVec S_ 1 :=
  let main_v34 : FVec F S256x2 .f32 := Host.absf main_arg9
  let main_cst_12 : FVec F S_ .f32 := constant S_ .f32 0x7F800000#32
  let main_v35 : FVec F S256x2 .f32 := broadcastInDim S256x2 ![] bcast_S_S256x2 main_cst_12
  let main_v36 : IVec S256x2 1 := cmpf .olt main_v34 main_v35
  let main_c_13 : IVec S_ 1 := constantI S_ 1 1#1
  let main_v37 : IVec S_ 1 := (fun x v => Host.reduce IntOp.andi x v reducesTo_S256x2_S_d0_1 h_S_) main_v36 main_c_13
  let main_v38 : IVec S_ 1 := andi main_v33 main_v37
  let main_v39 : FVec F S2 .f32 := Host.absf main_arg10
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg6 : FVec F S128x128 .f32) (main_arg7 : FVec F S128x128 .f32) (main_arg8 : FVec F S128 .f32) (main_arg9 : FVec F S256x2 .f32) (main_arg10 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S10000x128 .f32) (main_arg1 : IVec S640000 32) (main_arg2 : IVec S640000 32) (main_arg3 : FVec F S128x128 .f32) (main_arg4 : FVec F S128x128 .f32) (main_arg5 : FVec F S128 .f32) (main_arg6 : FVec F S128x128 .f32) (main_arg7 : FVec F S128x128 .f32) (main_arg8 : FVec F S128 .f32) (main_arg9 : FVec F S256x2 .f32) (main_arg10 : FVec F S2 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_v13 main_v16
-- ==== Kernel.lean ====
abbrev S10000x128 : Shape := ⟨2, ![10000, 128]⟩
abbrev S640000 : Shape := ⟨1, ![640000]⟩
abbrev S128x128 : Shape := ⟨2, ![128, 128]⟩
abbrev S128 : Shape := ⟨1, ![128]⟩
abbrev S256x2 : Shape := ⟨2, ![256, 2]⟩
abbrev S2 : Shape := ⟨1, ![2]⟩
abbrev S_ : Shape := ⟨0, ![]⟩
abbrev S10000 : Shape := ⟨1, ![10000]⟩
abbrev S640000x1 : Shape := ⟨2, ![640000, 1]⟩
abbrev S10000x1 : Shape := ⟨2, ![10000, 1]⟩
abbrev S640000x128 : Shape := ⟨2, ![640000, 128]⟩
abbrev S1x128 : Shape := ⟨2, ![1, 128]⟩
abbrev S2000x128 : Shape := ⟨2, ![2000, 128]⟩
abbrev S2000x1 : Shape := ⟨2, ![2000, 1]⟩
abbrev S128x2 : Shape := ⟨2, ![128, 2]⟩
abbrev S10000x2 : Shape := ⟨2, ![10000, 2]⟩
abbrev S2000x2 : Shape := ⟨2, ![2000, 2]⟩
abbrev S640000x2 : Shape := ⟨2, ![640000, 2]⟩
abbrev S1x2 : Shape := ⟨2, ![1, 2]⟩

abbrev nBuf : Space → Nat
  | .hbm => 73
  | .vmem => 26
  | .smem => 0
  | _ => 0

abbrev bufTy : (tb : Table) → Fin (tcTables nBuf tb) → BufTy
  | .hbm, ⟨0, _⟩ => ⟨S10000x128, .f32⟩
  | .hbm, ⟨1, _⟩ => ⟨S640000, .i32⟩
  | .hbm, ⟨2, _⟩ => ⟨S640000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S256x2, .f32⟩
  | .hbm, ⟨10, _⟩ => ⟨S2, .f32⟩
  | .hbm, ⟨11, _⟩ => ⟨S_, .f32⟩
  | .hbm, ⟨12, _⟩ => ⟨S640000, .f32⟩
  | .hbm, ⟨13, _⟩ => ⟨S_, .f32⟩
  | .hbm, ⟨14, _⟩ => ⟨S10000, .f32⟩
  | .hbm, ⟨15, _⟩ => ⟨S640000x1, .i32⟩
  | .hbm, ⟨16, _⟩ => ⟨S10000, .f32⟩
  | .hbm, ⟨17, _⟩ => ⟨S10000x1, .f32⟩
  | .hbm, ⟨18, _⟩ => ⟨S_, .i32⟩
  | .hbm, ⟨19, _⟩ => ⟨S640000, .i32⟩
  | .hbm, ⟨20, _⟩ => ⟨S640000, .i1⟩
  | .hbm, ⟨21, _⟩ => ⟨S_, .i32⟩
  | .hbm, ⟨22, _⟩ => ⟨S640000, .i32⟩
  | .hbm, ⟨23, _⟩ => ⟨S640000, .i32⟩
  | .hbm, ⟨24, _⟩ => ⟨S640000, .i32⟩
  | .hbm, ⟨25, _⟩ => ⟨S640000x1, .i32⟩
  | .hbm, ⟨26, _⟩ => ⟨S640000x128, .f32⟩
  | .hbm, ⟨27, _⟩ => ⟨S_, .f32⟩
  | .hbm, ⟨28, _⟩ => ⟨S10000x128, .f32⟩
  | .hbm, ⟨29, _⟩ => ⟨S640000x1, .i32⟩
  | .hbm, ⟨30, _⟩ => ⟨S10000x128, .f32⟩
  | .hbm, ⟨31, _⟩ => ⟨S1x128, .f32⟩
  | .hbm, ⟨32, _⟩ => ⟨S10000x128, .f32⟩
  | .hbm, ⟨33, _⟩ => ⟨S_, .i32⟩
  | .hbm, ⟨34, _⟩ => ⟨S640000, .i32⟩
  | .hbm, ⟨35, _⟩ => ⟨S640000, .i1⟩
  | .hbm, ⟨36, _⟩ => ⟨S_, .i32⟩
  | .hbm, ⟨37, _⟩ => ⟨S640000, .i32⟩
  | .hbm, ⟨38, _⟩ => ⟨S640000, .i32⟩
  | .hbm, ⟨39, _⟩ => ⟨S640000, .i32⟩
  | .hbm, ⟨40, _⟩ => ⟨S640000x1, .i32⟩
  | .hbm, ⟨41, _⟩ => ⟨S640000x128, .f32⟩
  | .hbm, ⟨42, _⟩ => ⟨S_, .f32⟩
  | .hbm, ⟨43, _⟩ => ⟨S10000x128, .f32⟩
  | .hbm, ⟨44, _⟩ => ⟨S640000x1, .i32⟩
  | .hbm, ⟨45, _⟩ => ⟨S10000x128, .f32⟩
  | .hbm, ⟨46, _⟩ => ⟨S128x2, .f32⟩
  | .hbm, ⟨47, _⟩ => ⟨S128x2, .f32⟩
  | .hbm, ⟨48, _⟩ => ⟨S1x128, .f32⟩
  | .hbm, ⟨49, _⟩ => ⟨S10000x2, .f32⟩
  | .hbm, ⟨50, _⟩ => ⟨S10000x2, .f32⟩
  | .hbm, ⟨51, _⟩ => ⟨S_, .i32⟩
  | .hbm, ⟨52, _⟩ => ⟨S640000, .i32⟩
  | .hbm, ⟨53, _⟩ => ⟨S640000, .i1⟩
  | .hbm, ⟨54, _⟩ => ⟨S_, .i32⟩
  | .hbm, ⟨55, _⟩ => ⟨S640000, .i32⟩
  | .hbm, ⟨56, _⟩ => ⟨S640000, .i32⟩
  | .hbm, ⟨57, _⟩ => ⟨S640000, .i32⟩
  | .hbm, ⟨58, _⟩ => ⟨S640000x1, .i32⟩
  | .hbm, ⟨59, _⟩ => ⟨S640000x2, .f32⟩
  | .hbm, ⟨60, _⟩ => ⟨S_, .i32⟩
  | .hbm, ⟨61, _⟩ => ⟨S640000, .i32⟩
  | .hbm, ⟨62, _⟩ => ⟨S640000, .i1⟩
  | .hbm, ⟨63, _⟩ => ⟨S_, .i32⟩
  | .hbm, ⟨64, _⟩ => ⟨S640000, .i32⟩
  | .hbm, ⟨65, _⟩ => ⟨S640000, .i32⟩
  | .hbm, ⟨66, _⟩ => ⟨S640000, .i32⟩
  | .hbm, ⟨67, _⟩ => ⟨S640000x1, .i32⟩
  | .hbm, ⟨68, _⟩ => ⟨S640000x2, .f32⟩
  | .hbm, ⟨69, _⟩ => ⟨S640000x2, .f32⟩
  | .hbm, ⟨70, _⟩ => ⟨S1x2, .f32⟩
  | .hbm, ⟨71, _⟩ => ⟨S640000x2, .f32⟩
  | .hbm, ⟨72, _⟩ => ⟨S640000x2, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x1, .f32⟩
  | .local _ .vmem, ⟨5, _⟩ => ⟨S2000x1, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x1, .f32⟩
  | .local _ .vmem, ⟨16, _⟩ => ⟨S2000x1, .f32⟩
  | .local _ .vmem, ⟨17, _⟩ => ⟨S128x128, .f32⟩
  | .local _ .vmem, ⟨18, _⟩ => ⟨S128x128, .f32⟩
  | .local _ .vmem, ⟨19, _⟩ => ⟨S1x128, .f32⟩
  | .local _ .vmem, ⟨20, _⟩ => ⟨S128x2, .f32⟩
  | .local _ .vmem, ⟨21, _⟩ => ⟨S128x2, .f32⟩
  | .local _ .vmem, ⟨22, _⟩ => ⟨S2000x2, .f32⟩
  | .local _ .vmem, ⟨23, _⟩ => ⟨S2000x2, .f32⟩
  | .local _ .vmem, ⟨24, _⟩ => ⟨S2000x2, .f32⟩
  | .local _ .vmem, ⟨25, _⟩ => ⟨S2000x2, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_c : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_2 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30_0 : Ref sig .tc := ⟨.hbm, 49, rfl⟩
abbrev main_v30_1 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c_8 : Ref sig .tc := ⟨.hbm, 60, rfl⟩
abbrev main_v38 : Ref sig .tc := ⟨.hbm, 61, rfl⟩
abbrev main_v39 : Ref sig .tc := ⟨.hbm, 62, rfl⟩
abbrev main_c_9 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg8_1 : Ref sig .tc := ⟨.vmem, 23, rfl⟩
abbrev cc1_stg9_0 : Ref sig .tc := ⟨.vmem, 24, rfl⟩
abbrev cc1_stg9_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem8_1 : DmaSem sig := 23
abbrev cc1_sem9_0 : DmaSem sig := 24
abbrev cc1_sem9_1 : DmaSem sig := 25

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x2 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x2 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2000x2 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S2000x2 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  bcast_S_S640000 : S_.BroadcastsInDim S640000 (![] : Fin 0 → Fin S640000.rank)
  bcast_S_S10000 : S_.BroadcastsInDim S10000 (![] : Fin 0 → Fin S10000.rank)
  bcast_S640000_S640000x1_0 : S640000.BroadcastsInDim S640000x1 (![0] : Fin 1 → Fin S640000x1.rank)
  shapeCasts_S10000_S10000x1 : S10000.ShapeCasts S10000x1
  bcast_S_S10000x128 : S_.BroadcastsInDim S10000x128 (![] : Fin 0 → Fin S10000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  slices_S256x2_S128x2_0_0 : S256x2.Slices ![0, 0] S128x2
  slices_S256x2_S128x2_128_0 : S256x2.Slices ![128, 0] S128x2
  inb_S128x2_S128x2_0_0 : ∀ a, (![0, 0] : Fin 2 → Nat) a + S128x2.size a ≤ S128x2.size a
  h_S128x2 : 0 < S128x2.numel
  shapeCasts_S128x2_S128x2 : S128x2.ShapeCasts S128x2
  inb_S2000x2_S2000x2_0_0 : ∀ a, (![0, 0] : Fin 2 → Nat) a + S2000x2.size a ≤ S2000x2.size a
  h_S2000x2 : 0 < S2000x2.numel
  bcast_S2_S1x2_1 : S2.BroadcastsInDim S1x2 (![1] : Fin 1 → Fin S1x2.rank)
  bcast_S1x2_S640000x2_0_1 : S1x2.BroadcastsInDim S640000x2 (![0, 1] : Fin 2 → Fin S640000x2.rank)
  scatter_S10000_S640000x1_S640000_n_0_0_1_wf : ScatterDims.WF S10000 S640000x1 S640000 [] [0] [0] 1
  gather_S10000x128_S640000x1_S640000x128_1_0_n_n_0_1_1128_wf : GatherDims.WF S10000x128 S640000x1 S640000x128 [1] [0] [] [0] [] 1 ![1, 128]
  scatter_S10000x128_S640000x1_S640000x128_1_0_0_1_wf : ScatterDims.WF S10000x128 S640000x1 S640000x128 [1] [0] [0] 1
  dot_S2000x128_S128x128_S2000x128_1_0_0_1_n_n_wf : DotDims.WF S2000x128 S128x128 S2000x128 [1] [0] [0] [1] [] []
  dot_S2000x128_S128x2_S2000x2_1_0_0_1_n_n_wf : DotDims.WF S2000x128 S128x2 S2000x2 [1] [0] [0] [1] [] []
  gather_S10000x2_S640000x1_S640000x2_1_0_n_n_0_1_12_wf : GatherDims.WF S10000x2 S640000x1 S640000x2 [1] [0] [] [0] [] 1 ![1, 2]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S10000x128.size a
  hwx0_0 : ∀ i : grid0.Coords, EltTy.bits .f32 = 32 ∨ (Rect.block (s := S10000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S10000x128.size a
  hwx0_1 : ∀ i : grid0.Coords, EltTy.bits .f32 = 32 ∨ (Rect.block (s := S10000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S10000x1.size a
  hwx0_2 : ∀ i : grid0.Coords, EltTy.bits .f32 = 32 ∨ (Rect.block (s := S10000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S10000x128.size a
  hwx0_6 : ∀ i : grid0.Coords, EltTy.bits .f32 = 32 ∨ (Rect.block (s := S10000x128) S2000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S10000x128.size a
  hwx1_0 : ∀ i : grid1.Coords, EltTy.bits .f32 = 32 ∨ (Rect.block (s := S10000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S10000x128.size a
  hwx1_1 : ∀ i : grid1.Coords, EltTy.bits .f32 = 32 ∨ (Rect.block (s := S10000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S10000x1.size a
  hwx1_2 : ∀ i : grid1.Coords, EltTy.bits .f32 = 32 ∨ (Rect.block (s := S10000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x2.size a ≤ S128x2.size a
  hwx1_6 : ∀ i : grid1.Coords, EltTy.bits .f32 = 32 ∨ (Rect.block (s := S128x2) S128x2.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x2.size a ≤ S128x2.size a
  hwx1_7 : ∀ i : grid1.Coords, EltTy.bits .f32 = 32 ∨ (Rect.block (s := S128x2) S128x2.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x2.size a ≤ S10000x2.size a
  hwx1_8 : ∀ i : grid1.Coords, EltTy.bits .f32 = 32 ∨ (Rect.block (s := S10000x2) S2000x2.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2000x2.size a ≤ S10000x2.size a
  hwx1_9 : ∀ i : grid1.Coords, EltTy.bits .f32 = 32 ∨ (Rect.block (s := S10000x2) S2000x2.size (cc1_transform_9 i) (hinb1_9 i)).WholeWords (EltTy.packing .f32)

variable [Facts₀]

def scatter_S10000_S640000x1_S640000_n_0_0_1 : ScatterDims S10000 S640000x1 S640000 where
  updateWindowDims := []
  insertedWindowDims := [0]
  scatterDimsToOperandDims := [0]
  indexVectorDim := 1
  wf := scatter_S10000_S640000x1_S640000_n_0_0_1_wf
def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x2_S2000x2_1_0_0_1_n_n : DotDims S2000x128 S128x2 S2000x2 where
  lhsContracting := [1]
  rhsContracting := [0]
  lhsNonContracting := [0]
  rhsNonContracting := [1]
  lhsBatch := []
  rhsBatch := []
  wf := dot_S2000x128_S128x2_S2000x2_1_0_0_1_n_n_wf
def gather_S10000x2_S640000x1_S640000x2_1_0_n_n_0_1_12 : GatherDims S10000x2 S640000x1 S640000x2 where
  offsetDims := [1]
  collapsedSliceDims := [0]
  operandBatchingDims := []
  startIndicesBatchingDims := []
  startIndexMap := [0]
  indexVectorDim := 1
  sliceSizes := ![1, 2]
  wf := gather_S10000x2_S640000x1_S640000x2_1_0_n_n_0_1_12_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v16) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v29) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v27) S128x2.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v28) S128x2.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v30_0) S2000x2.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v30_1) S2000x2.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S10000x128 : Shape := ⟨2, ![10000, 128]⟩
abbrev S640000 : Shape := ⟨1, ![640000]⟩
abbrev S128x128 : Shape := ⟨2, ![128, 128]⟩
abbrev S128 : Shape := ⟨1, ![128]⟩
abbrev S256x2 : Shape := ⟨2, ![256, 2]⟩
abbrev S2 : Shape := ⟨1, ![2]⟩
abbrev S_ : Shape := ⟨0, ![]⟩
abbrev S640000x1 : Shape := ⟨2, ![640000, 1]⟩
abbrev S640000x128 : Shape := ⟨2, ![640000, 128]⟩
abbrev S10000 : Shape := ⟨1, ![10000]⟩
abbrev S10000x1 : Shape := ⟨2, ![10000, 1]⟩
abbrev S1x128 : Shape := ⟨2, ![1, 128]⟩
abbrev S640000x256 : Shape := ⟨2, ![640000, 256]⟩
abbrev S640000x2 : Shape := ⟨2, ![640000, 2]⟩
abbrev S1x2 : Shape := ⟨2, ![1, 2]⟩

abbrev nBuf : Space → Nat
  | .hbm => 99
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S640000, .i32⟩
  | .hbm, ⟨2, _⟩ => ⟨S640000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S256x2, .f32⟩
  | .hbm, ⟨10, _⟩ => ⟨S2, .f32⟩
  | .hbm, ⟨11, _⟩ => ⟨S10000x128, .f32⟩
  | .hbm, ⟨12, _⟩ => ⟨S_, .i32⟩
  | .hbm, ⟨13, _⟩ => ⟨S640000, .i32⟩
  | .hbm, ⟨14, _⟩ => ⟨S640000, .i1⟩
  | .hbm, ⟨15, _⟩ => ⟨S_, .i32⟩
  | .hbm, ⟨16, _⟩ => ⟨S640000, .i32⟩
  | .hbm, ⟨17, _⟩ => ⟨S640000, .i32⟩
  | .hbm, ⟨18, _⟩ => ⟨S640000, .i32⟩
  | .hbm, ⟨19, _⟩ => ⟨S640000x1, .i32⟩
  | .hbm, ⟨20, _⟩ => ⟨S640000x128, .f32⟩
  | .hbm, ⟨21, _⟩ => ⟨S_, .f32⟩
  | .hbm, ⟨22, _⟩ => ⟨S10000x128, .f32⟩
  | .hbm, ⟨23, _⟩ => ⟨S640000x1, .i32⟩
  | .hbm, ⟨24, _⟩ => ⟨S10000x128, .f32⟩
  | .hbm, ⟨25, _⟩ => ⟨S_, .f32⟩
  | .hbm, ⟨26, _⟩ => ⟨S640000, .f32⟩
  | .hbm, ⟨27, _⟩ => ⟨S_, .f32⟩
  | .hbm, ⟨28, _⟩ => ⟨S10000, .f32⟩
  | .hbm, ⟨29, _⟩ => ⟨S640000x1, .i32⟩
  | .hbm, ⟨30, _⟩ => ⟨S10000, .f32⟩
  | .hbm, ⟨31, _⟩ => ⟨S_, .f32⟩
  | .hbm, ⟨32, _⟩ => ⟨S10000, .f32⟩
  | .hbm, ⟨33, _⟩ => ⟨S10000, .f32⟩
  | .hbm, ⟨34, _⟩ => ⟨S10000x1, .f32⟩
  | .hbm, ⟨35, _⟩ => ⟨S10000x128, .f32⟩
  | .hbm, ⟨36, _⟩ => ⟨S10000x128, .f32⟩
  | .hbm, ⟨37, _⟩ => ⟨S10000x128, .f32⟩
  | .hbm, ⟨38, _⟩ => ⟨S10000x128, .f32⟩
  | .hbm, ⟨39, _⟩ => ⟨S1x128, .f32⟩
  | .hbm, ⟨40, _⟩ => ⟨S10000x128, .f32⟩
  | .hbm, ⟨41, _⟩ => ⟨S10000x128, .f32⟩
  | .hbm, ⟨42, _⟩ => ⟨S_, .f32⟩
  | .hbm, ⟨43, _⟩ => ⟨S10000x128, .f32⟩
  | .hbm, ⟨44, _⟩ => ⟨S10000x128, .f32⟩
  | .hbm, ⟨45, _⟩ => ⟨S10000x128, .f32⟩
  | .hbm, ⟨46, _⟩ => ⟨S_, .i32⟩
  | .hbm, ⟨47, _⟩ => ⟨S640000, .i32⟩
  | .hbm, ⟨48, _⟩ => ⟨S640000, .i1⟩
  | .hbm, ⟨49, _⟩ => ⟨S_, .i32⟩
  | .hbm, ⟨50, _⟩ => ⟨S640000, .i32⟩
  | .hbm, ⟨51, _⟩ => ⟨S640000, .i32⟩
  | .hbm, ⟨52, _⟩ => ⟨S640000, .i32⟩
  | .hbm, ⟨53, _⟩ => ⟨S640000x1, .i32⟩
  | .hbm, ⟨54, _⟩ => ⟨S640000x128, .f32⟩
  | .hbm, ⟨55, _⟩ => ⟨S_, .f32⟩
  | .hbm, ⟨56, _⟩ => ⟨S10000x128, .f32⟩
  | .hbm, ⟨57, _⟩ => ⟨S640000x1, .i32⟩
  | .hbm, ⟨58, _⟩ => ⟨S10000x128, .f32⟩
  | .hbm, ⟨59, _⟩ => ⟨S_, .f32⟩
  | .hbm, ⟨60, _⟩ => ⟨S640000, .f32⟩
  | .hbm, ⟨61, _⟩ => ⟨S_, .f32⟩
  | .hbm, ⟨62, _⟩ => ⟨S10000, .f32⟩
  | .hbm, ⟨63, _⟩ => ⟨S640000x1, .i32⟩
  | .hbm, ⟨64, _⟩ => ⟨S10000, .f32⟩
  | .hbm, ⟨65, _⟩ => ⟨S_, .f32⟩
  | .hbm, ⟨66, _⟩ => ⟨S10000, .f32⟩
  | .hbm, ⟨67, _⟩ => ⟨S10000, .f32⟩
  | .hbm, ⟨68, _⟩ => ⟨S10000x1, .f32⟩
  | .hbm, ⟨69, _⟩ => ⟨S10000x128, .f32⟩
  | .hbm, ⟨70, _⟩ => ⟨S10000x128, .f32⟩
  | .hbm, ⟨71, _⟩ => ⟨S10000x128, .f32⟩
  | .hbm, ⟨72, _⟩ => ⟨S10000x128, .f32⟩
  | .hbm, ⟨73, _⟩ => ⟨S1x128, .f32⟩
  | .hbm, ⟨74, _⟩ => ⟨S10000x128, .f32⟩
  | .hbm, ⟨75, _⟩ => ⟨S10000x128, .f32⟩
  | .hbm, ⟨76, _⟩ => ⟨S_, .i32⟩
  | .hbm, ⟨77, _⟩ => ⟨S640000, .i32⟩
  | .hbm, ⟨78, _⟩ => ⟨S640000, .i1⟩
  | .hbm, ⟨79, _⟩ => ⟨S_, .i32⟩
  | .hbm, ⟨80, _⟩ => ⟨S640000, .i32⟩
  | .hbm, ⟨81, _⟩ => ⟨S640000, .i32⟩
  | .hbm, ⟨82, _⟩ => ⟨S640000, .i32⟩
  | .hbm, ⟨83, _⟩ => ⟨S640000x1, .i32⟩
  | .hbm, ⟨84, _⟩ => ⟨S640000x128, .f32⟩
  | .hbm, ⟨85, _⟩ => ⟨S_, .i32⟩
  | .hbm, ⟨86, _⟩ => ⟨S640000, .i32⟩
  | .hbm, ⟨87, _⟩ => ⟨S640000, .i1⟩
  | .hbm, ⟨88, _⟩ => ⟨S_, .i32⟩
  | .hbm, ⟨89, _⟩ => ⟨S640000, .i32⟩
  | .hbm, ⟨90, _⟩ => ⟨S640000, .i32⟩
  | .hbm, ⟨91, _⟩ => ⟨S640000, .i32⟩
  | .hbm, ⟨92, _⟩ => ⟨S640000x1, .i32⟩
  | .hbm, ⟨93, _⟩ => ⟨S640000x128, .f32⟩
  | .hbm, ⟨94, _⟩ => ⟨S640000x256, .f32⟩
  | .hbm, ⟨95, _⟩ => ⟨S640000x2, .f32⟩
  | .hbm, ⟨96, _⟩ => ⟨S1x2, .f32⟩
  | .hbm, ⟨97, _⟩ => ⟨S640000x2, .f32⟩
  | .hbm, ⟨98, _⟩ => ⟨S640000x2, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_cst_2 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_call0_cst : Ref sig .tc := ⟨.hbm, 42, rfl⟩
abbrev main_call0_v0 : Ref sig .tc := ⟨.hbm, 43, rfl⟩
abbrev main_v25 : Ref sig .tc := ⟨.hbm, 44, rfl⟩
abbrev main_v26 : Ref sig .tc := ⟨.hbm, 45, rfl⟩
abbrev main_c_4 : Ref sig .tc := ⟨.hbm, 46, rfl⟩
abbrev main_v27 : Ref sig .tc := ⟨.hbm, 47, rfl⟩
abbrev main_v28 : Ref sig .tc := ⟨.hbm, 48, rfl⟩
abbrev main_c_5 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_6 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_7 : Ref sig .tc := ⟨.hbm, 59, rfl⟩
abbrev main_v37 : Ref sig .tc := ⟨.hbm, 60, rfl⟩
abbrev main_cst_8 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_9 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_c_10 : Ref sig .tc := ⟨.hbm, 76, rfl⟩
abbrev main_v51 : Ref sig .tc := ⟨.hbm, 77, rfl⟩
abbrev main_v52 : Ref sig .tc := ⟨.hbm, 78, rfl⟩
abbrev main_c_11 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_c_12 : Ref sig .tc := ⟨.hbm, 85, rfl⟩
abbrev main_v58 : Ref sig .tc := ⟨.hbm, 86, rfl⟩
abbrev main_v59 : Ref sig .tc := ⟨.hbm, 87, rfl⟩
abbrev main_c_13 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S_S10000x128 : S_.BroadcastsInDim S10000x128 (![] : Fin 0 → Fin S10000x128.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  concatenates_S640000x128_S640000x128_S640000x256_d1 : Shape.Concatenates [S640000x128, S640000x128] S640000x256 1
  bcast_S2_S1x2_1 : S2.BroadcastsInDim S1x2 (![1] : Fin 1 → Fin S1x2.rank)
  bcast_S1x2_S640000x2_0_1 : S1x2.BroadcastsInDim S640000x2 (![0, 1] : Fin 2 → Fin S640000x2.rank)
  dot_S10000x128_S128x128_S10000x128_1_0_0_1_n_n_wf : DotDims.WF S10000x128 S128x128 S10000x128 [1] [0] [0] [1] [] []
  gather_S10000x128_S640000x1_S640000x128_1_0_n_n_0_1_1128_wf : GatherDims.WF S10000x128 S640000x1 S640000x128 [1] [0] [] [0] [] 1 ![1, 128]
  scatter_S10000x128_S640000x1_S640000x128_1_0_0_1_wf : ScatterDims.WF S10000x128 S640000x1 S640000x128 [1] [0] [0] 1
  scatter_S10000_S640000x1_S640000_n_0_0_1_wf : ScatterDims.WF S10000 S640000x1 S640000 [] [0] [0] 1
  dot_S640000x256_S256x2_S640000x2_1_0_0_1_n_n_wf : DotDims.WF S640000x256 S256x2 S640000x2 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def scatter_S10000_S640000x1_S640000_n_0_0_1 : ScatterDims S10000 S640000x1 S640000 where
  updateWindowDims := []
  insertedWindowDims := [0]
  scatterDimsToOperandDims := [0]
  indexVectorDim := 1
  wf := scatter_S10000_S640000x1_S640000_n_0_0_1_wf
def dot_S640000x256_S256x2_S640000x2_1_0_0_1_n_n : DotDims S640000x256 S256x2 S640000x2 where
  lhsContracting := [1]
  rhsContracting := [0]
  lhsNonContracting := [0]
  rhsNonContracting := [1]
  lhsBatch := []
  rhsBatch := []
  wf := dot_S640000x256_S256x2_S640000x2_1_0_0_1_n_n_wf

class Facts : Prop extends Facts₀ where

variable [Facts]
-- ==== Proof.SageSpec.lean ====
/-
  A two-layer mean-aggregating graph network with a linear edge scorer, as functions on the extended reals.

  A layer sends a node's feature row x through W_self, the mean of its in-neighbours' rows — the summed messages
  divided by max(degree, 1) — through W_neigh, and adds a bias: `combine`. The first layer is followed by max(·, 0).
  The edge score of an edge (s, d) is the concatenation of the two end nodes' second-layer rows times a [256, 2]
  matrix, plus a bias. Since that product is a sum over the 256 joined coordinates, it splits into the sum over
  the first 128 (the source row against the top half of the matrix) plus the sum over the last 128 (the
  destination row against the bottom half): the two per-node half-scores may be computed first and looked up by
  edge afterwards. Only associativity and commutativity of addition on the extended reals are used, so nothing is
  assumed finite.
-/
import Idealize.ShloMosaic.Lib.ValueIdx
import Idealize.ShloMosaic.PureOps.Ideal

noncomputable section

open scoped BigOperators

namespace Cert.Sage

open Idealize.ShloMosaic Idealize.ShloMosaic.ValueIdx

/-- One entry of a layer before its activation: the feature row through `Ws`, the messages' row divided by
    max(degree, 1) through `Wn`, plus the bias entry. -/
def combine (xr mr : Fin 128 → EReal) (d : EReal) (Ws Wn : (⟨2, ![128, 128]⟩ : Shape).Idx → EReal) (b : EReal)
    (q : Fin 128) : EReal :=
  (∑ k : Fin 128, xr k * Ws (ix2 k q)
    + ∑ k : Fin 128, Ideal.div (mr k) (max d (Ideal.ofBits .f32 0x3F800000#32)) * Wn (ix2 k q)) + b

/-- The first layer at node `p`, feature `q`: `combine` of the node's rows, then max(·, 0). -/
def hidden1At (X M : (⟨2, ![10000, 128]⟩ : Shape).Idx → EReal) (D : (⟨1, ![10000]⟩ : Shape).Idx → EReal)
    (Ws Wn : (⟨2, ![128, 128]⟩ : Shape).Idx → EReal) (B : (⟨1, ![128]⟩ : Shape).Idx → EReal) (p : Fin 10000) (q : Fin 128) : EReal :=
  max (combine (fun k => X (ix2 p k)) (fun k => M (ix2 p k)) (D (ix1 p)) Ws Wn (B (ix1 q)) q) (Ideal.ofBits .f32 0x00000000#32)

/-- The first layer's output table. -/
def hidden1 (X M : (⟨2, ![10000, 128]⟩ : Shape).Idx → EReal) (D : (⟨1, ![10000]⟩ : Shape).Idx → EReal)
    (Ws Wn : (⟨2, ![128, 128]⟩ : Shape).Idx → EReal) (B : (⟨1, ![128]⟩ : Shape).Idx → EReal) :
    (⟨2, ![10000, 128]⟩ : Shape).Idx → EReal :=
  fun i => hidden1At X M D Ws Wn B (i 0) (i 1)

theorem hidden1_apply (X M : (⟨2, ![10000, 128]⟩ : Shape).Idx → EReal) (D : (⟨1, ![10000]⟩ : Shape).Idx → EReal)
    (Ws Wn : (⟨2, ![128, 128]⟩ : Shape).Idx → EReal) (B : (⟨1, ![128]⟩ : Shape).Idx → EReal) (p : Fin 10000) (q : Fin 128) :
    hidden1 X M D Ws Wn B (ix2 p q) = hidden1At X M D Ws Wn B p q := rfl

/-- The second layer at node `p`, feature `q`: `combine` with no activation. -/
def hidden2At (X M : (⟨2, ![10000, 128]⟩ : Shape).Idx → EReal) (D : (⟨1, ![10000]⟩ : Shape).Idx → EReal)
    (Ws Wn : (⟨2, ![128, 128]⟩ : Shape).Idx → EReal) (B : (⟨1, ![128]⟩ : Shape).Idx → EReal) (p : Fin 10000) (q : Fin 128) : EReal :=
  combine (fun k => X (ix2 p k)) (fun k => M (ix2 p k)) (D (ix1 p)) Ws Wn (B (ix1 q)) q

/-- The second layer's output table. -/
def hidden2 (X M : (⟨2, ![10000, 128]⟩ : Shape).Idx → EReal) (D : (⟨1, ![10000]⟩ : Shape).Idx → EReal)
    (Ws Wn : (⟨2, ![128, 128]⟩ : Shape).Idx → EReal) (B : (⟨1, ![128]⟩ : Shape).Idx → EReal) :
    (⟨2, ![10000, 128]⟩ : Shape).Idx → EReal :=
  fun i => hidden2At X M D Ws Wn B (i 0) (i 1)

theorem hidden2_apply (X M : (⟨2, ![10000, 128]⟩ : Shape).Idx → EReal) (D : (⟨1, ![10000]⟩ : Shape).Idx → EReal)
    (Ws Wn : (⟨2, ![128, 128]⟩ : Shape).Idx → EReal) (B : (⟨1, ![128]⟩ : Shape).Idx → EReal) (p : Fin 10000) (q : Fin 128) :
    hidden2 X M D Ws Wn B (ix2 p q) = hidden2At X M D Ws Wn B p q := rfl

/-- A per-node half-score at node `p`, class `c`: the node's row against one half of the scoring matrix. -/
def halfScoreAt (H : (⟨2, ![10000, 128]⟩ : Shape).Idx → EReal) (Wh : (⟨2, ![128, 2]⟩ : Shape).Idx → EReal) (p : Fin 10000) (c : Fin 2) : EReal :=
  ∑ k : Fin 128, H (ix2 p k) * Wh (ix2 k c)

/-- The table of half-scores. -/
def halfScore (H : (⟨2, ![10000, 128]⟩ : Shape).Idx → EReal) (Wh : (⟨2, ![128, 2]⟩ : Shape).Idx → EReal) :
    (⟨2, ![10000, 2]⟩ : Shape).Idx → EReal :=
  fun i => halfScoreAt H Wh (i 0) (i 1)

theorem halfScore_apply (H : (⟨2, ![10000, 128]⟩ : Shape).Idx → EReal) (Wh : (⟨2, ![128, 2]⟩ : Shape).Idx → EReal) (p : Fin 10000) (c : Fin 2) :
    halfScore H Wh (ix2 p c) = halfScoreAt H Wh p c := rfl

/-- The edge score from the half-scores: source node's first half-score plus destination node's second, plus bias. -/
def scoreOfHalves (PS PD : (⟨2, ![10000, 2]⟩ : Shape).Idx → EReal) (bp : (⟨1, ![2]⟩ : Shape).Idx → EReal)
    (rs rd : Fin 640000 → Fin 10000) : (⟨2, ![640000, 2]⟩ : Shape).Idx → EReal :=
  fun i => (PS (ix2 (rs (i 0)) (i 1)) + PD (ix2 (rd (i 0)) (i 1))) + bp (ix1 (i 1))

/-- The edge score from the joined rows: the [640000, 256] table of source row followed by destination row, times the
    scoring matrix, plus bias. -/
def scoreOfJoined (J : (⟨2, ![640000, 256]⟩ : Shape).Idx → EReal) (Wp : (⟨2, ![256, 2]⟩ : Shape).Idx → EReal)
    (bp : (⟨1, ![2]⟩ : Shape).Idx → EReal) : (⟨2, ![640000, 2]⟩ : Shape).Idx → EReal :=
  fun i => (∑ k : Fin 256, J (ix2 (i 0) k) * Wp (ix2 k (i 1))) + bp (ix1 (i 1))

/-- A sum over 256 coordinates is the sum over the first 128 plus the sum over the last 128. -/
theorem sum_halves (f : Fin 256 → EReal) :
    ∑ k : Fin 256, f k = ∑ k : Fin 128, f ⟨k.val, by omega⟩ + ∑ k : Fin 128, f ⟨128 + k.val, by omega⟩ := by
  have h := Fin.sum_univ_add (M := EReal) (a := 128) (b := 128) (fun k => f ⟨k.val, k.isLt⟩)
  refine Eq.trans ?_ (h.trans ?_)
  · rfl
  · rfl

/-- THE LAW: scoring the joined rows is adding the two looked-up half-scores, when the joined table holds the
    source's row then the destination's, and the half matrices are the top and bottom halves of the scoring matrix. -/
theorem score_eq (H : (⟨2, ![10000, 128]⟩ : Shape).Idx → EReal) (J : (⟨2, ![640000, 256]⟩ : Shape).Idx → EReal)
    (Wp : (⟨2, ![256, 2]⟩ : Shape).Idx → EReal) (W1 W2 : (⟨2, ![128, 2]⟩ : Shape).Idx → EReal)
    (bp : (⟨1, ![2]⟩ : Shape).Idx → EReal) (rs rd : Fin 640000 → Fin 10000)
    (hJ1 : ∀ (e : Fin 640000) (k : Fin 128), J (ix2 e ⟨k.val, by omega⟩) = H (ix2 (rs e) k))
    (hJ2 : ∀ (e : Fin 640000) (k : Fin 128), J (ix2 e ⟨128 + k.val, by omega⟩) = H (ix2 (rd e) k))
    (hW1 : ∀ (k : Fin 128) (c : Fin 2), W1 (ix2 k c) = Wp (ix2 ⟨k.val, by omega⟩ c))
    (hW2 : ∀ (k : Fin 128) (c : Fin 2), W2 (ix2 k c) = Wp (ix2 ⟨128 + k.val, by omega⟩ c)) :
    scoreOfJoined J Wp bp = scoreOfHalves (halfScore H W1) (halfScore H W2) bp rs rd := by
  funext i
  obtain ⟨e, c, rfl⟩ : ∃ (e : Fin 640000) (c : Fin 2), i = ix2 e c := ⟨i 0, i 1, eq_ix2 i⟩
  show (∑ k : Fin 256, J (ix2 e k) * Wp (ix2 k c)) + bp (ix1 c)
    = ((∑ k : Fin 128, H (ix2 (rs e) k) * W1 (ix2 k c)) + ∑ k : Fin 128, H (ix2 (rd e) k) * W2 (ix2 k c)) + bp (ix1 c)
  rw [sum_halves]
  refine congrArg (· + bp (ix1 c)) ?_
  refine congrArg₂ (· + ·) (Finset.sum_congr rfl fun k _ => ?_) (Finset.sum_congr rfl fun k _ => ?_)
  · rw [hJ1, hW1]
  · rw [hJ2, hW2]

end Cert.Sage

end
-- ==== Proof.LibPlainDot.lean ====
/-
  A plain matrix product read at an index, on the extended reals.

  For the dimension numbers of an M×K by K×N product (contract the left operand's axis 1 with the
  right operand's axis 0, no batch axis), the entry (p, q) of the product is ∑ k, a[p, k] · b[k, q]:
  for the host's dot_general, for a matmul into any accumulator (plus the accumulator's entry), and
  for a matmul into the zero splat. The contraction's one-axis index is re-indexed to its coordinate.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable (M K N : Nat)

/-- The left operand's row coordinate is the output's row. -/
theorem plain_lhs_row (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- The right operand's column coordinate is the output's column. -/
theorem plain_rhs_col (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index at output (p, q) and contraction coordinate k is (p, k). -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => exact plain_lhs_row M K N (ix2 p q) _
  | ⟨1, _⟩ => exact ((DotDims.plain M K N).lhsIdx_val_of_single rfl (ix2 p q) _).trans hk

/-- The right operand's index at output (p, q) and contraction coordinate k is (k, q). -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => exact plain_rhs_col M K N (ix2 p q) _

/-- The contraction sum of a plain product at (p, q) is the sum over the shared coordinate. -/
theorem plain_sum (a : (⟨2, ![M, K]⟩ : Shape).Idx → EReal) (b : (⟨2, ![K, N]⟩ : Shape).Idx → EReal) (p : Fin M) (q : Fin N) :
    (∑ k : (DotDims.plain M K N).contr.Idx,
        a ((DotDims.plain M K N).lhsIdx (ix2 p q) k) * b ((DotDims.plain M K N).rhsIdx (ix2 p q) k))
      = ∑ k : Fin K, a (ix2 p k) * b (ix2 k q) := by
  rw [← Equiv.sum_comp (contrEquiv1 (DotDims.plain M K N) K rfl rfl).symm]
  refine Finset.sum_congr rfl fun k _ => ?_
  rw [plain_lhsIdx, plain_rhsIdx]

/-- A matmul into the zero splat, read at (p, q). -/
theorem matmul_zero_apply {φ₁ φ₂ : FTy} (prec : Option ContractPrecision)
    (a : FVec Ideal ⟨2, ![M, K]⟩ φ₁) (b : FVec Ideal ⟨2, ![K, N]⟩ φ₂) (p : Fin M) (q : Fin N) :
    FloatOps.matmul (DotDims.plain M K N) prec a b (constant ⟨2, ![M, N]⟩ .f32 0x00000000#32) (ix2 p q)
      = ∑ k : Fin K, a (ix2 p k) * b (ix2 k q) :=
  (Ideal.matmul_constant_zero_apply (DotDims.plain M K N) prec a b (ix2 p q)).trans (plain_sum M K N a b p q)

/-- The host's dot_general, read at (p, q). -/
theorem dotGeneral_apply {φ₁ φ₂ : FTy} (prec : Option ContractPrecision) (sched : HostSchedule)
    (a : FVec Ideal ⟨2, ![M, K]⟩ φ₁) (b : FVec Ideal ⟨2, ![K, N]⟩ φ₂) (p : Fin M) (q : Fin N) :
    FloatOps.dotGeneral (DotDims.plain M K N) prec sched a b (ix2 p q) = ∑ k : Fin K, a (ix2 p k) * b (ix2 k q) :=
  (Ideal.dotGeneral_apply (DotDims.plain M K N) prec sched a b (ix2 p q)).trans (plain_sum M K N a b p q)

end Idealize.ShloMosaic.PlainDot

end
-- ==== Proof.LibKeepdims.lean ====
/-
  Small layout operations and one-axis sums of a matrix, read at an index: a vector turned into a column
  ([a] → [a, 1]), a column broadcast along its rows ([a, 1] → [a, b]), the sum of a matrix along its rows
  ([a, b] → [a], at `i` the sum over `k` of the entries `(i, k)`) and the sum of a column ([a, 1] → [1]), the two
  sums at the ideal values, where a float sum is the sum of the extended reals.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the ideal values the sum of an `[a, b]` matrix along its rows is, at `i`, the sum over `k` of the entries `(i, k)`. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  refine (Ideal.multiReduction_add_single src acc h hφ hacc (ix1 i)).trans ?_
  refine Finset.sum_congr rfl fun k _ => congrArg src (funext fun ax => Fin.ext ?_)
  match ax with
  | ⟨0, _⟩ => rfl
  | ⟨1, _⟩ => rfl

/-- At the ideal values the sum of an `[a, 1]` column is, at its one index, the sum over `r` of the entries `(r, 0)`. -/
theorem colSum_apply {a : ℕ} {φ : FTy} (src : FVec Ideal ⟨2, ![a, 1]⟩ φ) (acc : BitVec φ.bits)
    (h : (⟨2, ![a, 1]⟩ : Shape).Reduces [0] ⟨1, ![1]⟩) (hφ : FKind.Formats φ) (hacc : acc = FKind.add.neutral φ hφ) (u : Fin 1) :
    multiReduction .add [0] ⟨1, ![1]⟩ src acc h hφ hacc (ix1 u) = ∑ r : Fin a, src (ix2 r (0 : Fin 1)) := by
  refine (Ideal.multiReduction_add_single src acc h hφ hacc (ix1 u)).trans ?_
  refine Finset.sum_congr rfl fun r _ => congrArg src (funext fun ax => Fin.ext ?_)
  have hu : u.val = 0 := by omega
  match ax with
  | ⟨0, _⟩ => rfl
  | ⟨1, _⟩ => exact hu

end Cert.LibKeepdims

end
-- ==== Proof.LibRowTable.lean ====
/-
  Three small readings at an index, used where a block of rows is compared with a table of representatives.

  * `broadcastTo_1bc_abc_apply`: a `[1, b, c]` array spread over `a` leading copies reads, at `(i, j, k)`, the operand at
    `(0, j, k)`.
  * `biasRow_apply`: a `[1, b]` row, cast to its own shape and spread over `a` rows, reads at `(p, j)` the row at `j`.
  * `rowMin_apply`: at the ideal values the minimum of an `[a, b]` matrix along its rows is, at `i`, the fold of `min`
    from the accumulator's value over `k` of the entries `(i, k)`.
-/
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.Reduce

noncomputable section

namespace Cert.LibRowTable

open Idealize.ShloMosaic Idealize.ShloMosaic.ValueIdx

variable {α : Type}

/-- A `[1, b, c]` array broadcast to `[a, b, c]` reads, at `(i, j, k)`, the operand at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- A `[1, b]` row, cast to its own shape and spread over `a` rows, reads at `(p, j)` the row at `j`. -/
theorem biasRow_apply {a b : ℕ} (v : (⟨2, ![1, b]⟩ : Shape).Idx → α) (h1 : (⟨2, ![1, b]⟩ : Shape).ShapeCasts ⟨2, ![1, b]⟩)
    (h2 : (⟨2, ![1, b]⟩ : Shape).Broadcasts ⟨2, ![a, b]⟩) (p : Fin a) (j : Fin b) :
    broadcastTo ⟨2, ![a, b]⟩ (shapeCast ⟨2, ![1, b]⟩ v h1) h2 (ix2 p j) = v (ix2 (0 : Fin 1) j) := by
  rw [broadcastTo_1b_ab_apply, shapeCast_self]

/-- At the ideal values the minimum of an `[a, b]` matrix along its rows is, at `i`, the fold of `min` from the
    accumulator's value over `k` of the entries `(i, k)`. -/
theorem rowMin_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ) (i : Fin a) :
    multiReduction .minimumf [1] ⟨1, ![a]⟩ src acc h hφ hacc (ix1 i)
      = (Finset.univ : Finset (Fin b)).fold min (Ideal.ofBits φ acc) (fun k => src (ix2 i k)) := by
  rw [multiReduction_minimumf_eq_fold]
  refine (h.fold_filter_drop_single _ _ src (ix1 i)).trans ?_
  refine congrArg (fun f => (Finset.univ : Finset (Fin b)).fold min (Ideal.ofBits φ acc) f) (funext fun k => ?_)
  refine congrArg src (funext fun ax => Fin.ext ?_)
  match ax with
  | ⟨0, _⟩ => rfl
  | ⟨1, _⟩ => rfl

end Cert.LibRowTable

end
-- ==== Proof.SagePayload.lean ====
/-
  The two kernel bodies' arithmetic read at an index, on the extended reals.

  A block of 2000 node rows goes in; what is stored at row p, column q of the block is, for the first body,
  max(combine, 0) — the row of features through W_self, the row of summed messages divided by max(degree, 1)
  through W_neigh, plus the bias — and, for the second body, the two half-scores of the row: combine (no
  activation) of the row, contracted against each [128, 2] half of the scoring matrix. Changes of float format
  are the identity here and a matrix product into the zero accumulator is the plain sum over the shared axis.
-/
import proofs.«170008_j34797825032691_2_alg».proof.Proof.Gen.KernelIdeal.Skeleton
import proofs.«170008_j34797825032691_2_alg».proof.Proof.SageSpec
import proofs.«170008_j34797825032691_2_alg».proof.Proof.LibPlainDot
import proofs.«170008_j34797825032691_2_alg».proof.Proof.LibKeepdims
import proofs.«170008_j34797825032691_2_alg».proof.Proof.LibRowTable
import Idealize.ShloMosaic.Lib.Pipeline.Value
import Idealize.ShloMosaic.Lib.ValueIdx
import Idealize.ShloMosaic.Lib.ValueLayout

noncomputable section

open scoped BigOperators

namespace Cert.KernelIdeal.Body

open Idealize.ShloMosaic Idealize.ShloMosaic.ValueIdx Cert.KernelIdeal Cert.KernelIdeal.Gen Cert.Sage

/-- The bodies' products are plain M×K by K×N products. -/
theorem dot_wide : dot_S2000x128_S128x128_S2000x128_1_0_0_1_n_n = DotDims.plain 2000 128 128 := rfl
theorem dot_narrow : dot_S2000x128_S128x2_S2000x2_1_0_0_1_n_n = DotDims.plain 2000 128 2 := rfl

/-- The mean-aggregated entry: the messages' entry (p, k) divided by max(degree of row p, 1). -/
theorem mean_apply (v0 : Vec Ideal S2000x128 .f32) (v2 : Vec Ideal S2000x1 .f32) (p : Fin 2000) (k : Fin 128) :
    (truncf .bf16 (divf (shapeCast S2000x128 v0 shapeCasts_S2000x128_S2000x128)
        (broadcastTo S2000x128 (maximumf (shapeCast S2000x1 v2 shapeCasts_S2000x1_S2000x1)
          (broadcast S2000x1 (Scalar.ofBits (F := Ideal) .f32 0x3F800000#32))) broadcasts_S2000x1_S2000x128))
        bitsLt_bf16_f32 : FVec Ideal S2000x128 .bf16) (ix2 p k)
      = Ideal.div (v0 (ix2 p k)) (max (v2 (ix2 p (0 : Fin 1))) (Ideal.ofBits .f32 0x3F800000#32)) := by
  rw [truncf_apply, divf_apply, shapeCast_self, LibKeepdims.broadcastTo_a1_ab_apply, maximumf_apply, shapeCast_self]
  rfl

/-- The sum of the two products plus the bias row, at (p, q): `combine` of row p. -/
theorem combine_apply (xb : FVec Ideal S2000x128 .bf16) (v0 : Vec Ideal S2000x128 .f32) (v2 : Vec Ideal S2000x1 .f32)
    (w1 w2 : Vec Ideal S128x128 .f32) (vb : Vec Ideal S1x128 .f32) (p : Fin 2000) (q : Fin 128) :
    addf (addf
        (matmul dot_S2000x128_S128x128_S2000x128_1_0_0_1_n_n none xb
          (truncf .bf16 w1 bitsLt_bf16_f32 : FVec Ideal S128x128 .bf16) (constant S2000x128 .f32 0x00000000#32))
        (matmul dot_S2000x128_S128x128_S2000x128_1_0_0_1_n_n none
          (truncf .bf16 (divf (shapeCast S2000x128 v0 shapeCasts_S2000x128_S2000x128)
            (broadcastTo S2000x128 (maximumf (shapeCast S2000x1 v2 shapeCasts_S2000x1_S2000x1)
              (broadcast S2000x1 (Scalar.ofBits (F := Ideal) .f32 0x3F800000#32))) broadcasts_S2000x1_S2000x128))
            bitsLt_bf16_f32 : FVec Ideal S2000x128 .bf16)
          (truncf .bf16 w2 bitsLt_bf16_f32 : FVec Ideal S128x128 .bf16) (constant S2000x128 .f32 0x00000000#32)))
        (broadcastTo S2000x128 (shapeCast S1x128 vb shapeCasts_S1x128_S1x128) broadcasts_S1x128_S2000x128) (ix2 p q)
      = combine (fun k => xb (ix2 p k)) (fun k => v0 (ix2 p k)) (v2 (ix2 p (0 : Fin 1))) w1 w2 (vb (ix2 (0 : Fin 1) q)) q := by
  unfold combine
  refine (addf_apply _ _ _).trans (congrArg₂ (· + ·) ((addf_apply _ _ _).trans (congrArg₂ (· + ·) ?_ ?_)) ?_)
  · rw [dot_wide]
    exact PlainDot.matmul_zero_apply 2000 128 128 none xb _ p q
  · rw [dot_wide]
    refine (PlainDot.matmul_zero_apply 2000 128 128 none _ _ p q).trans (Finset.sum_congr rfl fun k _ => ?_)
    rw [mean_apply]
    rfl
  · exact LibRowTable.biasRow_apply vb _ _ p q

/-- FIRST BODY: the stored entry (p, q) is max(combine of row p, 0). -/
theorem pay0_apply (v0 : Vec Ideal S2000x128 .f32) (v2 : Vec Ideal S2000x1 .f32) (v8 : Vec Ideal S2000x128 .f32)
    (v11 v13 : Vec Ideal S128x128 .f32) (v18 : Vec Ideal S1x128 .f32) (p : Fin 2000) (q : Fin 128) :
    k0_pay1 (F := Ideal) v0 v2 v8 v11 v13 v18 (ix2 p q)
      = max (combine (fun k => v8 (ix2 p k)) (fun k => v0 (ix2 p k)) (v2 (ix2 p (0 : Fin 1))) v11 v13 (v18 (ix2 (0 : Fin 1) q)) q)
          (Ideal.ofBits .f32 0x00000000#32) := by
  unfold k0_pay1
  refine (maximumf_apply _ _ _).trans ?_
  refine congrArg₂ max ?_ rfl
  exact combine_apply (truncf .bf16 v8 bitsLt_bf16_f32) v0 v2 v11 v13 v18 p q

/-- SECOND BODY, the shared part: entry (p, k) of the second layer's block is combine of row p. -/
theorem pay1_apply (v0 : Vec Ideal S2000x128 .f32) (v2 : Vec Ideal S2000x1 .f32) (v8 : Vec Ideal S2000x128 .f32)
    (v12 v14 : Vec Ideal S128x128 .f32) (v19 : Vec Ideal S1x128 .f32) (p : Fin 2000) (q : Fin 128) :
    k1_pay1 (F := Ideal) v0 v2 v8 v12 v14 v19 (ix2 p q)
      = combine (fun k => v8 (ix2 p k)) (fun k => v0 (ix2 p k)) (v2 (ix2 p (0 : Fin 1))) v12 v14 (v19 (ix2 (0 : Fin 1) q)) q := by
  unfold k1_pay1
  refine (truncf_apply (s := S2000x128) (φ := .f32) (ψ := .bf16) _ bitsLt_bf16_f32 (ix2 p q)).trans ?_
  refine (combine_apply (truncf .bf16 (shapeCast S2000x128 v8 shapeCasts_S2000x128_S2000x128) bitsLt_bf16_f32) v0 v2 v12 v14 v19 p q).trans ?_
  have hx : (fun k : Fin 128 => (truncf .bf16 (shapeCast S2000x128 v8 shapeCasts_S2000x128_S2000x128) bitsLt_bf16_f32
      : FVec Ideal S2000x128 .bf16) (ix2 p k)) = fun k => v8 (ix2 p k) :=
    funext fun k => by rw [truncf_apply, shapeCast_self]
  rw [hx]

/-- SECOND BODY, first store: the half-score of row p against the first half matrix, at column c. -/
theorem pay2_apply (v0 : Vec Ideal S2000x128 .f32) (v2 : Vec Ideal S2000x1 .f32) (v8 : Vec Ideal S2000x128 .f32)
    (v12 v14 : Vec Ideal S128x128 .f32) (v19 : Vec Ideal S1x128 .f32) (v24 : Vec Ideal S128x2 .f32) (p : Fin 2000) (c : Fin 2) :
    k1_pay2 (F := Ideal) v0 v2 v8 v12 v14 v19 v24 (ix2 p c)
      = ∑ k : Fin 128, combine (fun k => v8 (ix2 p k)) (fun k => v0 (ix2 p k)) (v2 (ix2 p (0 : Fin 1))) v12 v14 (v19 (ix2 (0 : Fin 1) k)) k
          * v24 (ix2 k c) := by
  unfold k1_pay2
  rw [dot_narrow]
  refine (PlainDot.matmul_zero_apply 2000 128 2 none _ _ p c).trans (Finset.sum_congr rfl fun k _ => ?_)
  rw [pay1_apply, truncf_apply, shapeCast_self]

/-- SECOND BODY, second store: the half-score against the second half matrix. -/
theorem pay3_apply (v0 : Vec Ideal S2000x128 .f32) (v2 : Vec Ideal S2000x1 .f32) (v8 : Vec Ideal S2000x128 .f32)
    (v12 v14 : Vec Ideal S128x128 .f32) (v19 : Vec Ideal S1x128 .f32) (v27 : Vec Ideal S128x2 .f32) (p : Fin 2000) (c : Fin 2) :
    k1_pay3 (F := Ideal) v0 v2 v8 v12 v14 v19 v27 (ix2 p c)
      = ∑ k : Fin 128, combine (fun k => v8 (ix2 p k)) (fun k => v0 (ix2 p k)) (v2 (ix2 p (0 : Fin 1))) v12 v14 (v19 (ix2 (0 : Fin 1) k)) k
          * v27 (ix2 k c) := by
  unfold k1_pay3
  rw [dot_narrow]
  refine (PlainDot.matmul_zero_apply 2000 128 2 none _ _ p c).trans (Finset.sum_congr rfl fun k _ => ?_)
  rw [pay1_apply, truncf_apply, shapeCast_self]

end Cert.KernelIdeal.Body

end
-- ==== Proof.SageBlocks.lean ====
/-
  From blocks to arrays, for the two kernel regions.

  Both regions walk the 10000 node rows in five blocks of 2000. At point t the row-blocked windows (features,
  summed messages, degrees, and the outputs) hold rows 2000·t … 2000·t + 1999 of their arrays, and the weight,
  bias and half-matrix windows hold their whole arrays. So what point t writes back is block t of ONE function of
  the arrays the region finds — the first layer's table for region 0, the two half-score tables for region 1 —
  and since the five blocks tile the output, the output array ends holding that function.
-/
import proofs.«170008_j34797825032691_2_alg».proof.Proof.KernelIdealFrameP
import proofs.«170008_j34797825032691_2_alg».proof.Proof.SagePayload
import Idealize.ShloMosaic.Lib.Pipeline.Value
import Idealize.ShloMosaic.Lib.Tactic

set_option maxRecDepth 16384

noncomputable section

open scoped BigOperators

namespace Cert.KernelIdeal.Arr

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.GenP Cert.KernelIdeal.Body Cert.Sage

variable (V : (c : Dev nD) → (b : Ref sig .tc) → Buf (Elt Ideal) ((c : Thread nD τ).loc b))

theorem hz : (![0, 0] : Fin 2 → Nat) = fun _ => 0 := funext fun a => by fin_cases a <;> rfl

/-! ## Region 0: the first layer -/

/-- Region 0, window 0: the block at point `t` holds rows `2000·t … 2000·t + 1999` of the array. -/
theorem blk0_0 (c : Dev nD) (t : Fin cfg0.N) (p : Fin 2000) (k : Fin 128) (h : t.val * 2000 + p.val < 10000) :
    (iblk0 V c 0 t : Vec Ideal S2000x128 .f32) (ix2 p k) = V c main_arg0 (ix2 (⟨t.val * 2000 + p.val, h⟩ : Fin 10000) k) := by
  obtain ⟨h0, h1⟩ := (by decide +kernel : ∀ t : Fin grid0.N, win0_0.index t (0 : Fin 2) = t.val ∧ win0_0.index t (1 : Fin 2) = 0) t
  unfold iblk0
  rw [View.read_apply]
  show V c main_arg0 _ = V c main_arg0 _
  congr 1
  funext a
  apply Fin.ext
  match a with
  | ⟨0, _⟩ => show win0_0.index t (0 : Fin 2) * 2000 + 1 * p.val = t.val * 2000 + p.val; rw [h0]; omega
  | ⟨1, _⟩ => show win0_0.index t (1 : Fin 2) * 128 + 1 * k.val = k.val; rw [h1]; omega

/-- Region 0, window 1: the block at point `t` holds rows `2000·t … 2000·t + 1999` of the array. -/
theorem blk0_1 (c : Dev nD) (t : Fin cfg0.N) (p : Fin 2000) (k : Fin 128) (h : t.val * 2000 + p.val < 10000) :
    (iblk0 V c 1 t : Vec Ideal S2000x128 .f32) (ix2 p k) = V c main_v14 (ix2 (⟨t.val * 2000 + p.val, h⟩ : Fin 10000) k) := by
  obtain ⟨h0, h1⟩ := (by decide +kernel : ∀ t : Fin grid0.N, win0_1.index t (0 : Fin 2) = t.val ∧ win0_1.index t (1 : Fin 2) = 0) t
  unfold iblk0
  rw [View.read_apply]
  show V c main_v14 _ = V c main_v14 _
  congr 1
  funext a
  apply Fin.ext
  match a with
  | ⟨0, _⟩ => show win0_1.index t (0 : Fin 2) * 2000 + 1 * p.val = t.val * 2000 + p.val; rw [h0]; omega
  | ⟨1, _⟩ => show win0_1.index t (1 : Fin 2) * 128 + 1 * k.val = k.val; rw [h1]; omega

/-- Region 0, window 2: the block at point `t` holds rows `2000·t … 2000·t + 1999` of the array. -/
theorem blk0_2 (c : Dev nD) (t : Fin cfg0.N) (p : Fin 2000) (k : Fin 1) (h : t.val * 2000 + p.val < 10000) :
    (iblk0 V c 2 t : Vec Ideal S2000x1 .f32) (ix2 p k) = V c main_v4 (ix2 (⟨t.val * 2000 + p.val, h⟩ : Fin 10000) k) := by
  obtain ⟨h0, h1⟩ := (by decide +kernel : ∀ t : Fin grid0.N, win0_2.index t (0 : Fin 2) = t.val ∧ win0_2.index t (1 : Fin 2) = 0) t
  unfold iblk0
  rw [View.read_apply]
  show V c main_v4 _ = V c main_v4 _
  congr 1
  funext a
  apply Fin.ext
  match a with
  | ⟨0, _⟩ => show win0_2.index t (0 : Fin 2) * 2000 + 1 * p.val = t.val * 2000 + p.val; rw [h0]; omega
  | ⟨1, _⟩ => show win0_2.index t (1 : Fin 2) * 1 + 1 * k.val = k.val; rw [h1]; omega

/-- Region 0, window 3: the one block is the whole array, at every point. -/
theorem blk0_3 (c : Dev nD) (t : Fin cfg0.N) : (iblk0 V c 3 t : Vec Ideal S128x128 .f32) = V c main_arg3 := by
  obtain ⟨h0, h1⟩ := (by decide +kernel : ∀ t : Fin grid0.N, win0_3.index t (0 : Fin 2) = 0 ∧ win0_3.index t (1 : Fin 2) = 0) t
  funext j
  unfold iblk0
  rw [View.read_apply]
  show V c main_arg3 _ = V c main_arg3 _
  congr 1
  funext a
  apply Fin.ext
  match a with
  | ⟨0, _⟩ => show win0_3.index t (0 : Fin 2) * 128 + 1 * (j 0).val = (j 0).val; rw [h0]; omega
  | ⟨1, _⟩ => show win0_3.index t (1 : Fin 2) * 128 + 1 * (j 1).val = (j 1).val; rw [h1]; omega

/-- Region 0, window 4: the one block is the whole array, at every point. -/
theorem blk0_4 (c : Dev nD) (t : Fin cfg0.N) : (iblk0 V c 4 t : Vec Ideal S128x128 .f32) = V c main_arg4 := by
  obtain ⟨h0, h1⟩ := (by decide +kernel : ∀ t : Fin grid0.N, win0_4.index t (0 : Fin 2) = 0 ∧ win0_4.index t (1 : Fin 2) = 0) t
  funext j
  unfold iblk0
  rw [View.read_apply]
  show V c main_arg4 _ = V c main_arg4 _
  congr 1
  funext a
  apply Fin.ext
  match a with
  | ⟨0, _⟩ => show win0_4.index t (0 : Fin 2) * 128 + 1 * (j 0).val = (j 0).val; rw [h0]; omega
  | ⟨1, _⟩ => show win0_4.index t (1 : Fin 2) * 128 + 1 * (j 1).val = (j 1).val; rw [h1]; omega

/-- Region 0, window 5: the one block is the whole array, at every point. -/
theorem blk0_5 (c : Dev nD) (t : Fin cfg0.N) : (iblk0 V c 5 t : Vec Ideal S1x128 .f32) = V c main_v15 := by
  obtain ⟨h0, h1⟩ := (by decide +kernel : ∀ t : Fin grid0.N, win0_5.index t (0 : Fin 2) = 0 ∧ win0_5.index t (1 : Fin 2) = 0) t
  funext j
  unfold iblk0
  rw [View.read_apply]
  show V c main_v15 _ = V c main_v15 _
  congr 1
  funext a
  apply Fin.ext
  match a with
  | ⟨0, _⟩ => show win0_5.index t (0 : Fin 2) * 1 + 1 * (j 0).val = (j 0).val; rw [h0]; omega
  | ⟨1, _⟩ => show win0_5.index t (1 : Fin 2) * 128 + 1 * (j 1).val = (j 1).val; rw [h1]; omega

/-- Region 0, output window 6: where an element of the block at point `t` sits in the array. -/
theorem emb0_6 (t : Fin cfg0.N) (p : Fin 2000) (q : Fin 128) (h : t.val * 2000 + p.val < 10000) :
    ((cfg0.win 6).blk t).view.emb (ix2 p q) = ix2 (⟨t.val * 2000 + p.val, h⟩ : Fin 10000) q := by
  obtain ⟨h0, h1⟩ := (by decide +kernel : ∀ t : Fin grid0.N, win0_6.index t (0 : Fin 2) = t.val ∧ win0_6.index t (1 : Fin 2) = 0) t
  funext a
  apply Fin.ext
  match a with
  | ⟨0, _⟩ => show win0_6.index t (0 : Fin 2) * 2000 + 1 * p.val = t.val * 2000 + p.val; rw [h0]; omega
  | ⟨1, _⟩ => show win0_6.index t (1 : Fin 2) * 128 + 1 * q.val = q.val; rw [h1]; omega

/-- An index of the array is in point `t`'s block iff each coordinate is in the block's range on its axis. -/
theorem mem_blk0_6 (t : Fin cfg0.N) (i : S10000x128.Idx) :
    i ∈ ((cfg0.win 6).blk t).view.set ↔ ∀ a : Fin 2, win0_6.index t a * S2000x128.size a ≤ (i a).val ∧ (i a).val < win0_6.index t a * S2000x128.size a + S2000x128.size a := by
  show i ∈ ((View.whole main_v16).slice (win0_6.rect t)).set ↔ _
  rw [View.set_slice_whole, Rect.mem_set_unit]
  exact Iff.rfl

/-- The blocks of window 6 tile the array: row `r` is in the block of point `r / 2000`. -/
theorem tile0_6 (i : S10000x128.Idx) :
    ∃ t : Fin cfg0.N, (cfg0.win 6).flush t = true ∧ i ∈ ((cfg0.win 6).blk t).view.set := by
  have hi0 : (i 0).val < 10000 := idx2_lt0 i
  have hi1 : (i 1).val < 128 := idx2_lt1 i
  have h5 : cfg0.N = 5 := N_0
  refine ⟨⟨(i 0).val / 2000, by omega⟩, flush0_6 _, ?_⟩
  obtain ⟨h0, h1⟩ := (by decide +kernel : ∀ t : Fin grid0.N, win0_6.index t (0 : Fin 2) = t.val ∧ win0_6.index t (1 : Fin 2) = 0) (⟨(i 0).val / 2000, by omega⟩ : Fin cfg0.N)
  rw [mem_blk0_6]
  intro a
  match a with
  | ⟨0, _⟩ =>
    show win0_6.index _ (0 : Fin 2) * 2000 ≤ (i 0).val ∧ (i 0).val < win0_6.index _ (0 : Fin 2) * 2000 + 2000
    rw [h0]
    show (i 0).val / 2000 * 2000 ≤ (i 0).val ∧ (i 0).val < (i 0).val / 2000 * 2000 + 2000
    omega
  | ⟨1, _⟩ =>
    show win0_6.index _ (1 : Fin 2) * 128 ≤ (i 1).val ∧ (i 1).val < win0_6.index _ (1 : Fin 2) * 128 + 128
    rw [h1]
    omega

/-- The degrees as a vector over the nodes, from the [10000, 1] column the region is given. -/
abbrev degOf (A : S10000x1.Idx → EReal) : (⟨1, ![10000]⟩ : Shape).Idx → EReal := fun i => A (ix2 (i 0) (0 : Fin 1))
/-- The bias as a vector over the features, from the [1, 128] row the region is given. -/
abbrev biasOf (A : S1x128.Idx → EReal) : (⟨1, ![128]⟩ : Shape).Idx → EReal := fun i => A (ix2 (0 : Fin 1) (i 0))

/-- The first layer's table, of the arrays region 0 finds. -/
def G0 (c : Dev nD) : S10000x128.Idx → EReal :=
  hidden1 (V c main_arg0) (V c main_v14) (degOf (V c main_v4)) (V c main_arg3) (V c main_arg4) (biasOf (V c main_v15))

/-- WHAT POINT `t` OF REGION 0 WRITES BACK is block `t` of the first layer's table. -/
theorem flushed0 (c : Dev nD) (t : Fin cfg0.N) :
    (dat0 V c).flushed 6 t = ((cfg0.win 6).blk t).view.read (Elt Ideal) (G0 V c) := by
  show (cfg0.win 6).cut (grid0.coords t) ((dat0 V c).after 6 t) = _
  rw [after0_6]
  unfold out0_6
  rw [View.canon_unit_zero hz]
  simp only [View.ld_unit_zero (S := S2000x128) hz, View.ld_unit_zero (S := S2000x1) hz, View.ld_unit_zero (S := S128x128) hz,
    View.ld_unit_zero (S := S1x128) hz]
  funext j
  obtain ⟨p, q, rfl⟩ : ∃ (p : Fin 2000) (q : Fin 128), j = ix2 p q := ⟨j 0, j 1, eq_ix2 j⟩
  have h5 : cfg0.N = 5 := N_0
  have hrow : t.val * 2000 + p.val < 10000 := by have := t.isLt; have := p.isLt; omega
  refine (pay0_apply _ _ _ _ _ _ p q).trans ?_
  rw [View.read_apply, emb0_6 t p q hrow, blk0_3 V c t, blk0_4 V c t, blk0_5 V c t, blk0_2 V c t p 0 hrow,
    funext fun k => blk0_0 V c t p k hrow, funext fun k => blk0_1 V c t p k hrow]
  rfl

/-- So region 0's output array ends holding the first layer's table. -/
theorem arr0 (c : Dev nD) : (dat0 V c).arrAt 6 cfg0.N = G0 V c :=
  (dat0 V c).arrAt_eq_of_cover 6 (G0 V c) (fun t _ => flushed0 V c t) tile0_6

/-! ## Region 1: the second layer and the two half-scores -/

/-- Region 1, window 0: the block at point `t` holds rows `2000·t … 2000·t + 1999` of the array. -/
theorem blk1_0 (c : Dev nD) (t : Fin cfg1.N) (p : Fin 2000) (k : Fin 128) (h : t.val * 2000 + p.val < 10000) :
    (iblk1 V c 0 t : Vec Ideal S2000x128 .f32) (ix2 p k) = V c main_v16 (ix2 (⟨t.val * 2000 + p.val, h⟩ : Fin 10000) k) := by
  obtain ⟨h0, h1⟩ := (by decide +kernel : ∀ t : Fin grid1.N, win1_0.index t (0 : Fin 2) = t.val ∧ win1_0.index t (1 : Fin 2) = 0) t
  unfold iblk1
  rw [View.read_apply]
  show V c main_v16 _ = V c main_v16 _
  congr 1
  funext a
  apply Fin.ext
  match a with
  | ⟨0, _⟩ => show win1_0.index t (0 : Fin 2) * 2000 + 1 * p.val = t.val * 2000 + p.val; rw [h0]; omega
  | ⟨1, _⟩ => show win1_0.index t (1 : Fin 2) * 128 + 1 * k.val = k.val; rw [h1]; omega

/-- Region 1, window 1: the block at point `t` holds rows `2000·t … 2000·t + 1999` of the array. -/
theorem blk1_1 (c : Dev nD) (t : Fin cfg1.N) (p : Fin 2000) (k : Fin 128) (h : t.val * 2000 + p.val < 10000) :
    (iblk1 V c 1 t : Vec Ideal S2000x128 .f32) (ix2 p k) = V c main_v26 (ix2 (⟨t.val * 2000 + p.val, h⟩ : Fin 10000) k) := by
  obtain ⟨h0, h1⟩ := (by decide +kernel : ∀ t : Fin grid1.N, win1_1.index t (0 : Fin 2) = t.val ∧ win1_1.index t (1 : Fin 2) = 0) t
  unfold iblk1
  rw [View.read_apply]
  show V c main_v26 _ = V c main_v26 _
  congr 1
  funext a
  apply Fin.ext
  match a with
  | ⟨0, _⟩ => show win1_1.index t (0 : Fin 2) * 2000 + 1 * p.val = t.val * 2000 + p.val; rw [h0]; omega
  | ⟨1, _⟩ => show win1_1.index t (1 : Fin 2) * 128 + 1 * k.val = k.val; rw [h1]; omega

/-- Region 1, window 2: the block at point `t` holds rows `2000·t … 2000·t + 1999` of the array. -/
theorem blk1_2 (c : Dev nD) (t : Fin cfg1.N) (p : Fin 2000) (k : Fin 1) (h : t.val * 2000 + p.val < 10000) :
    (iblk1 V c 2 t : Vec Ideal S2000x1 .f32) (ix2 p k) = V c main_v4 (ix2 (⟨t.val * 2000 + p.val, h⟩ : Fin 10000) k) := by
  obtain ⟨h0, h1⟩ := (by decide +kernel : ∀ t : Fin grid1.N, win1_2.index t (0 : Fin 2) = t.val ∧ win1_2.index t (1 : Fin 2) = 0) t
  unfold iblk1
  rw [View.read_apply]
  show V c main_v4 _ = V c main_v4 _
  congr 1
  funext a
  apply Fin.ext
  match a with
  | ⟨0, _⟩ => show win1_2.index t (0 : Fin 2) * 2000 + 1 * p.val = t.val * 2000 + p.val; rw [h0]; omega
  | ⟨1, _⟩ => show win1_2.index t (1 : Fin 2) * 1 + 1 * k.val = k.val; rw [h1]; omega

/-- Region 1, window 3: the one block is the whole array, at every point. -/
theorem blk1_3 (c : Dev nD) (t : Fin cfg1.N) : (iblk1 V c 3 t : Vec Ideal S128x128 .f32) = V c main_arg6 := by
  obtain ⟨h0, h1⟩ := (by decide +kernel : ∀ t : Fin grid1.N, win1_3.index t (0 : Fin 2) = 0 ∧ win1_3.index t (1 : Fin 2) = 0) t
  funext j
  unfold iblk1
  rw [View.read_apply]
  show V c main_arg6 _ = V c main_arg6 _
  congr 1
  funext a
  apply Fin.ext
  match a with
  | ⟨0, _⟩ => show win1_3.index t (0 : Fin 2) * 128 + 1 * (j 0).val = (j 0).val; rw [h0]; omega
  | ⟨1, _⟩ => show win1_3.index t (1 : Fin 2) * 128 + 1 * (j 1).val = (j 1).val; rw [h1]; omega

/-- Region 1, window 4: the one block is the whole array, at every point. -/
theorem blk1_4 (c : Dev nD) (t : Fin cfg1.N) : (iblk1 V c 4 t : Vec Ideal S128x128 .f32) = V c main_arg7 := by
  obtain ⟨h0, h1⟩ := (by decide +kernel : ∀ t : Fin grid1.N, win1_4.index t (0 : Fin 2) = 0 ∧ win1_4.index t (1 : Fin 2) = 0) t
  funext j
  unfold iblk1
  rw [View.read_apply]
  show V c main_arg7 _ = V c main_arg7 _
  congr 1
  funext a
  apply Fin.ext
  match a with
  | ⟨0, _⟩ => show win1_4.index t (0 : Fin 2) * 128 + 1 * (j 0).val = (j 0).val; rw [h0]; omega
  | ⟨1, _⟩ => show win1_4.index t (1 : Fin 2) * 128 + 1 * (j 1).val = (j 1).val; rw [h1]; omega

/-- Region 1, window 5: the one block is the whole array, at every point. -/
theorem blk1_5 (c : Dev nD) (t : Fin cfg1.N) : (iblk1 V c 5 t : Vec Ideal S1x128 .f32) = V c main_v29 := by
  obtain ⟨h0, h1⟩ := (by decide +kernel : ∀ t : Fin grid1.N, win1_5.index t (0 : Fin 2) = 0 ∧ win1_5.index t (1 : Fin 2) = 0) t
  funext j
  unfold iblk1
  rw [View.read_apply]
  show V c main_v29 _ = V c main_v29 _
  congr 1
  funext a
  apply Fin.ext
  match a with
  | ⟨0, _⟩ => show win1_5.index t (0 : Fin 2) * 1 + 1 * (j 0).val = (j 0).val; rw [h0]; omega
  | ⟨1, _⟩ => show win1_5.index t (1 : Fin 2) * 128 + 1 * (j 1).val = (j 1).val; rw [h1]; omega

/-- Region 1, window 6: the one block is the whole array, at every point. -/
theorem blk1_6 (c : Dev nD) (t : Fin cfg1.N) : (iblk1 V c 6 t : Vec Ideal S128x2 .f32) = V c main_v27 := by
  obtain ⟨h0, h1⟩ := (by decide +kernel : ∀ t : Fin grid1.N, win1_6.index t (0 : Fin 2) = 0 ∧ win1_6.index t (1 : Fin 2) = 0) t
  funext j
  unfold iblk1
  rw [View.read_apply]
  show V c main_v27 _ = V c main_v27 _
  congr 1
  funext a
  apply Fin.ext
  match a with
  | ⟨0, _⟩ => show win1_6.index t (0 : Fin 2) * 128 + 1 * (j 0).val = (j 0).val; rw [h0]; omega
  | ⟨1, _⟩ => show win1_6.index t (1 : Fin 2) * 2 + 1 * (j 1).val = (j 1).val; rw [h1]; omega

/-- Region 1, window 7: the one block is the whole array, at every point. -/
theorem blk1_7 (c : Dev nD) (t : Fin cfg1.N) : (iblk1 V c 7 t : Vec Ideal S128x2 .f32) = V c main_v28 := by
  obtain ⟨h0, h1⟩ := (by decide +kernel : ∀ t : Fin grid1.N, win1_7.index t (0 : Fin 2) = 0 ∧ win1_7.index t (1 : Fin 2) = 0) t
  funext j
  unfold iblk1
  rw [View.read_apply]
  show V c main_v28 _ = V c main_v28 _
  congr 1
  funext a
  apply Fin.ext
  match a with
  | ⟨0, _⟩ => show win1_7.index t (0 : Fin 2) * 128 + 1 * (j 0).val = (j 0).val; rw [h0]; omega
  | ⟨1, _⟩ => show win1_7.index t (1 : Fin 2) * 2 + 1 * (j 1).val = (j 1).val; rw [h1]; omega

/-- Region 1, output window 8: where an element of the block at point `t` sits in the array. -/
theorem emb1_8 (t : Fin cfg1.N) (p : Fin 2000) (q : Fin 2) (h : t.val * 2000 + p.val < 10000) :
    ((cfg1.win 8).blk t).view.emb (ix2 p q) = ix2 (⟨t.val * 2000 + p.val, h⟩ : Fin 10000) q := by
  obtain ⟨h0, h1⟩ := (by decide +kernel : ∀ t : Fin grid1.N, win1_8.index t (0 : Fin 2) = t.val ∧ win1_8.index t (1 : Fin 2) = 0) t
  funext a
  apply Fin.ext
  match a with
  | ⟨0, _⟩ => show win1_8.index t (0 : Fin 2) * 2000 + 1 * p.val = t.val * 2000 + p.val; rw [h0]; omega
  | ⟨1, _⟩ => show win1_8.index t (1 : Fin 2) * 2 + 1 * q.val = q.val; rw [h1]; omega

/-- An index of the array is in point `t`'s block iff each coordinate is in the block's range on its axis. -/
theorem mem_blk1_8 (t : Fin cfg1.N) (i : S10000x2.Idx) :
    i ∈ ((cfg1.win 8).blk t).view.set ↔ ∀ a : Fin 2, win1_8.index t a * S2000x2.size a ≤ (i a).val ∧ (i a).val < win1_8.index t a * S2000x2.size a + S2000x2.size a := by
  show i ∈ ((View.whole main_v30_0).slice (win1_8.rect t)).set ↔ _
  rw [View.set_slice_whole, Rect.mem_set_unit]
  exact Iff.rfl

/-- The blocks of window 8 tile the array: row `r` is in the block of point `r / 2000`. -/
theorem tile1_8 (i : S10000x2.Idx) :
    ∃ t : Fin cfg1.N, (cfg1.win 8).flush t = true ∧ i ∈ ((cfg1.win 8).blk t).view.set := by
  have hi0 : (i 0).val < 10000 := idx2_lt0 i
  have hi1 : (i 1).val < 2 := idx2_lt1 i
  have h5 : cfg1.N = 5 := N_1
  refine ⟨⟨(i 0).val / 2000, by omega⟩, flush1_8 _, ?_⟩
  obtain ⟨h0, h1⟩ := (by decide +kernel : ∀ t : Fin grid1.N, win1_8.index t (0 : Fin 2) = t.val ∧ win1_8.index t (1 : Fin 2) = 0) (⟨(i 0).val / 2000, by omega⟩ : Fin cfg1.N)
  rw [mem_blk1_8]
  intro a
  match a with
  | ⟨0, _⟩ =>
    show win1_8.index _ (0 : Fin 2) * 2000 ≤ (i 0).val ∧ (i 0).val < win1_8.index _ (0 : Fin 2) * 2000 + 2000
    rw [h0]
    show (i 0).val / 2000 * 2000 ≤ (i 0).val ∧ (i 0).val < (i 0).val / 2000 * 2000 + 2000
    omega
  | ⟨1, _⟩ =>
    show win1_8.index _ (1 : Fin 2) * 2 ≤ (i 1).val ∧ (i 1).val < win1_8.index _ (1 : Fin 2) * 2 + 2
    rw [h1]
    omega

/-- Region 1, output window 9: where an element of the block at point `t` sits in the array. -/
theorem emb1_9 (t : Fin cfg1.N) (p : Fin 2000) (q : Fin 2) (h : t.val * 2000 + p.val < 10000) :
    ((cfg1.win 9).blk t).view.emb (ix2 p q) = ix2 (⟨t.val * 2000 + p.val, h⟩ : Fin 10000) q := by
  obtain ⟨h0, h1⟩ := (by decide +kernel : ∀ t : Fin grid1.N, win1_9.index t (0 : Fin 2) = t.val ∧ win1_9.index t (1 : Fin 2) = 0) t
  funext a
  apply Fin.ext
  match a with
  | ⟨0, _⟩ => show win1_9.index t (0 : Fin 2) * 2000 + 1 * p.val = t.val * 2000 + p.val; rw [h0]; omega
  | ⟨1, _⟩ => show win1_9.index t (1 : Fin 2) * 2 + 1 * q.val = q.val; rw [h1]; omega

/-- An index of the array is in point `t`'s block iff each coordinate is in the block's range on its axis. -/
theorem mem_blk1_9 (t : Fin cfg1.N) (i : S10000x2.Idx) :
    i ∈ ((cfg1.win 9).blk t).view.set ↔ ∀ a : Fin 2, win1_9.index t a * S2000x2.size a ≤ (i a).val ∧ (i a).val < win1_9.index t a * S2000x2.size a + S2000x2.size a := by
  show i ∈ ((View.whole main_v30_1).slice (win1_9.rect t)).set ↔ _
  rw [View.set_slice_whole, Rect.mem_set_unit]
  exact Iff.rfl

/-- The blocks of window 9 tile the array: row `r` is in the block of point `r / 2000`. -/
theorem tile1_9 (i : S10000x2.Idx) :
    ∃ t : Fin cfg1.N, (cfg1.win 9).flush t = true ∧ i ∈ ((cfg1.win 9).blk t).view.set := by
  have hi0 : (i 0).val < 10000 := idx2_lt0 i
  have hi1 : (i 1).val < 2 := idx2_lt1 i
  have h5 : cfg1.N = 5 := N_1
  refine ⟨⟨(i 0).val / 2000, by omega⟩, flush1_9 _, ?_⟩
  obtain ⟨h0, h1⟩ := (by decide +kernel : ∀ t : Fin grid1.N, win1_9.index t (0 : Fin 2) = t.val ∧ win1_9.index t (1 : Fin 2) = 0) (⟨(i 0).val / 2000, by omega⟩ : Fin cfg1.N)
  rw [mem_blk1_9]
  intro a
  match a with
  | ⟨0, _⟩ =>
    show win1_9.index _ (0 : Fin 2) * 2000 ≤ (i 0).val ∧ (i 0).val < win1_9.index _ (0 : Fin 2) * 2000 + 2000
    rw [h0]
    show (i 0).val / 2000 * 2000 ≤ (i 0).val ∧ (i 0).val < (i 0).val / 2000 * 2000 + 2000
    omega
  | ⟨1, _⟩ =>
    show win1_9.index _ (1 : Fin 2) * 2 ≤ (i 1).val ∧ (i 1).val < win1_9.index _ (1 : Fin 2) * 2 + 2
    rw [h1]
    omega

/-- The second layer's table, of the arrays region 1 finds. -/
def H2 (c : Dev nD) : S10000x128.Idx → EReal :=
  hidden2 (V c main_v16) (V c main_v26) (degOf (V c main_v4)) (V c main_arg6) (V c main_arg7) (biasOf (V c main_v29))

/-- The half-score tables: the second layer's rows against each half matrix. -/
def G1_8 (c : Dev nD) : S10000x2.Idx → EReal := halfScore (H2 V c) (V c main_v27)
def G1_9 (c : Dev nD) : S10000x2.Idx → EReal := halfScore (H2 V c) (V c main_v28)

/-- WHAT POINT `t` OF REGION 1 WRITES BACK through window 8 is block `t` of the first half-score table. -/
theorem flushed1_8 (c : Dev nD) (t : Fin cfg1.N) :
    (dat1 V c).flushed 8 t = ((cfg1.win 8).blk t).view.read (Elt Ideal) (G1_8 V c) := by
  show (cfg1.win 8).cut (grid1.coords t) ((dat1 V c).after 8 t) = _
  rw [after1_8]
  unfold out1_8
  rw [View.canon_unit_zero hz]
  simp only [View.ld_unit_zero (S := S2000x128) hz, View.ld_unit_zero (S := S2000x1) hz, View.ld_unit_zero (S := S128x128) hz,
    View.ld_unit_zero (S := S1x128) hz, View.ld_unit_zero (S := S128x2) hz]
  funext j
  obtain ⟨p, q, rfl⟩ : ∃ (p : Fin 2000) (q : Fin 2), j = ix2 p q := ⟨j 0, j 1, eq_ix2 j⟩
  have h5 : cfg1.N = 5 := N_1
  have hrow : t.val * 2000 + p.val < 10000 := by have := t.isLt; have := p.isLt; omega
  refine (pay2_apply _ _ _ _ _ _ _ p q).trans ?_
  rw [View.read_apply, emb1_8 t p q hrow, blk1_3 V c t, blk1_4 V c t, blk1_5 V c t, blk1_6 V c t, blk1_2 V c t p 0 hrow,
    funext fun k => blk1_0 V c t p k hrow, funext fun k => blk1_1 V c t p k hrow]
  rfl

/-- … and through window 9, block `t` of the second. -/
theorem flushed1_9 (c : Dev nD) (t : Fin cfg1.N) :
    (dat1 V c).flushed 9 t = ((cfg1.win 9).blk t).view.read (Elt Ideal) (G1_9 V c) := by
  show (cfg1.win 9).cut (grid1.coords t) ((dat1 V c).after 9 t) = _
  rw [after1_9]
  unfold out1_9
  rw [View.canon_unit_zero hz]
  simp only [View.ld_unit_zero (S := S2000x128) hz, View.ld_unit_zero (S := S2000x1) hz, View.ld_unit_zero (S := S128x128) hz,
    View.ld_unit_zero (S := S1x128) hz, View.ld_unit_zero (S := S128x2) hz]
  funext j
  obtain ⟨p, q, rfl⟩ : ∃ (p : Fin 2000) (q : Fin 2), j = ix2 p q := ⟨j 0, j 1, eq_ix2 j⟩
  have h5 : cfg1.N = 5 := N_1
  have hrow : t.val * 2000 + p.val < 10000 := by have := t.isLt; have := p.isLt; omega
  refine (pay3_apply _ _ _ _ _ _ _ p q).trans ?_
  rw [View.read_apply, emb1_9 t p q hrow, blk1_3 V c t, blk1_4 V c t, blk1_5 V c t, blk1_7 V c t, blk1_2 V c t p 0 hrow,
    funext fun k => blk1_0 V c t p k hrow, funext fun k => blk1_1 V c t p k hrow]
  rfl

/-- So region 1's two output arrays end holding the half-score tables. -/
theorem arr1_8 (c : Dev nD) : (dat1 V c).arrAt 8 cfg1.N = G1_8 V c :=
  (dat1 V c).arrAt_eq_of_cover 8 (G1_8 V c) (fun t _ => flushed1_8 V c t) tile1_8
theorem arr1_9 (c : Dev nD) : (dat1 V c).arrAt 9 cfg1.N = G1_9 V c :=
  (dat1 V c).arrAt_eq_of_cover 9 (G1_9 V c) (fun t _ => flushed1_9 V c t) tile1_9

end Cert.KernelIdeal.Arr

end
-- ==== Proof.SageHost.lean ====
/-
  The three stretches of host operations of the kernel program, read from any buffer contents.

  Before the first region: the degrees (ones scattered by destination), the summed messages of the features
  (the source nodes' rows gathered, then scattered by destination) and the bias as a row. Between the regions:
  the summed messages of the first layer's table, the two halves of the scoring matrix, the second bias as a row.
  After the second region: the two half-score tables looked up by source and by destination, added, plus the
  scorer's bias. A node number is normalised first (a negative one has 10000 added); every other buffer keeps
  its contents.
-/
import proofs.«170008_j34797825032691_2_alg».proof.Proof.KernelIdealLaunchP
import Idealize.ShloMosaic.Lib.StableHlo.Run

noncomputable section

namespace Cert.KernelIdeal.HostRead

open Idealize.ShloMosaic Idealize.ShloMosaic.TcCoe Idealize.SL.Sem Idealize.ShloMosaic.StableHlo
open Cert.KernelIdeal Cert.KernelIdeal.Gen Cert.KernelIdeal.GenP

variable {F : FTy → Type} [FloatOps F]

/-- The row numbers a vector of node numbers stands for, as the [640000, 1] array a lookup takes: a negative number
    has 10000 added. -/
def rowIdx (a : (⟨S640000, .i32⟩ : BufTy).Contents (Elt F)) : (⟨S640000x1, .i32⟩ : BufTy).Contents (Elt F) :=
  broadcastInDim S640000x1 ![0] bcast_S640000_S640000x1_0
    (select (cmpi CmpIPredicate.slt a (broadcastInDim S640000 ![] bcast_S_S640000 (constantI S_ 32 0#32)))
      (addi a (broadcastInDim S640000 ![] bcast_S_S640000 (constantI S_ 32 10000#32))) a)

/-- The summed messages of a node table: the source nodes' rows, added up per destination node. -/
def msgOf (a1 a2 : (⟨S640000, .i32⟩ : BufTy).Contents (Elt F)) (h : (⟨S10000x128, .f32⟩ : BufTy).Contents (Elt F)) :
    (⟨S10000x128, .f32⟩ : BufTy).Contents (Elt F) :=
  Host.scatterAdd scatter_S10000x128_S640000x1_S640000x128_1_0_0_1
    (broadcastInDim S10000x128 ![] bcast_S_S10000x128 (constant S_ .f32 0x00000000#32))
    (broadcastInDim S640000x1 ![0] bcast_S640000_S640000x1_0 a2)
    (Host.gather gather_S10000x128_S640000x1_S640000x128_1_0_n_n_0_1_1128 h (rowIdx a1))

/-- The in-degrees: a one per edge, added up per destination node. -/
def degOfEdges (a2 : (⟨S640000, .i32⟩ : BufTy).Contents (Elt F)) : (⟨S10000, .f32⟩ : BufTy).Contents (Elt F) :=
  Host.scatterAdd scatter_S10000_S640000x1_S640000_n_0_0_1
    (broadcastInDim S10000 ![] bcast_S_S10000 (constant S_ .f32 0x00000000#32))
    (broadcastInDim S640000x1 ![0] bcast_S640000_S640000x1_0 a2)
    (broadcastInDim S640000 ![] bcast_S_S640000 (constant S_ .f32 0x3F800000#32))

/-- The edge scores from the two half-score tables. -/
def scoreOf (a1 a2 : (⟨S640000, .i32⟩ : BufTy).Contents (Elt F)) (ps pd : (⟨S10000x2, .f32⟩ : BufTy).Contents (Elt F))
    (bp : (⟨S2, .f32⟩ : BufTy).Contents (Elt F)) : (⟨S640000x2, .f32⟩ : BufTy).Contents (Elt F) :=
  addf (addf (Host.gather gather_S10000x2_S640000x1_S640000x2_1_0_n_n_0_1_12 ps (rowIdx a1))
      (Host.gather gather_S10000x2_S640000x1_S640000x2_1_0_n_n_0_1_12 pd (rowIdx a2)))
    (broadcastInDim S640000x2 ![0, 1] bcast_S1x2_S640000x2_0_1 (broadcastInDim S1x2 ![1] bcast_S2_S1x2_1 bp))

variable (W : Valuation τ sig (Elt F))

/-! ## Before the first region -/

theorem host0_v14 : StableHlo.after (hostOps0 (F := F)) W (Proc.devRef .tc main_v14)
    = msgOf (W (Proc.devRef .tc main_arg1)) (W (Proc.devRef .tc main_arg2)) (W (Proc.devRef .tc main_arg0)) := by
  after_results_simp
  rfl
theorem host0_v4 : StableHlo.after (hostOps0 (F := F)) W (Proc.devRef .tc main_v4)
    = shapeCast S10000x1 (degOfEdges (W (Proc.devRef .tc main_arg2))) shapeCasts_S10000_S10000x1 := by
  after_results_simp
  rfl
theorem host0_v15 : StableHlo.after (hostOps0 (F := F)) W (Proc.devRef .tc main_v15)
    = shapeCast S1x128 (W (Proc.devRef .tc main_arg5)) shapeCasts_S128_S1x128 := by
  after_results_simp
  rfl
theorem host0_arg0 : StableHlo.after (hostOps0 (F := F)) W (Proc.devRef .tc main_arg0) = W (Proc.devRef .tc main_arg0) := by
  after_results_simp
theorem host0_arg1 : StableHlo.after (hostOps0 (F := F)) W (Proc.devRef .tc main_arg1) = W (Proc.devRef .tc main_arg1) := by
  after_results_simp
theorem host0_arg2 : StableHlo.after (hostOps0 (F := F)) W (Proc.devRef .tc main_arg2) = W (Proc.devRef .tc main_arg2) := by
  after_results_simp
theorem host0_arg3 : StableHlo.after (hostOps0 (F := F)) W (Proc.devRef .tc main_arg3) = W (Proc.devRef .tc main_arg3) := by
  after_results_simp
theorem host0_arg4 : StableHlo.after (hostOps0 (F := F)) W (Proc.devRef .tc main_arg4) = W (Proc.devRef .tc main_arg4) := by
  after_results_simp
theorem host0_arg6 : StableHlo.after (hostOps0 (F := F)) W (Proc.devRef .tc main_arg6) = W (Proc.devRef .tc main_arg6) := by
  after_results_simp
theorem host0_arg7 : StableHlo.after (hostOps0 (F := F)) W (Proc.devRef .tc main_arg7) = W (Proc.devRef .tc main_arg7) := by
  after_results_simp
theorem host0_arg8 : StableHlo.after (hostOps0 (F := F)) W (Proc.devRef .tc main_arg8) = W (Proc.devRef .tc main_arg8) := by
  after_results_simp
theorem host0_arg9 : StableHlo.after (hostOps0 (F := F)) W (Proc.devRef .tc main_arg9) = W (Proc.devRef .tc main_arg9) := by
  after_results_simp
theorem host0_arg10 : StableHlo.after (hostOps0 (F := F)) W (Proc.devRef .tc main_arg10) = W (Proc.devRef .tc main_arg10) := by
  after_results_simp

/-! ## Between the regions -/

theorem host1_v26 : StableHlo.after (hostOps1 (F := F)) W (Proc.devRef .tc main_v26)
    = msgOf (W (Proc.devRef .tc main_arg1)) (W (Proc.devRef .tc main_arg2)) (W (Proc.devRef .tc main_v16)) := by
  after_results_simp
  rfl
theorem host1_v27 : StableHlo.after (hostOps1 (F := F)) W (Proc.devRef .tc main_v27)
    = extractStridedSlice S128x2 ![0, 0] (W (Proc.devRef .tc main_arg9)) slices_S256x2_S128x2_0_0 := by
  after_results_simp
theorem host1_v28 : StableHlo.after (hostOps1 (F := F)) W (Proc.devRef .tc main_v28)
    = extractStridedSlice S128x2 ![128, 0] (W (Proc.devRef .tc main_arg9)) slices_S256x2_S128x2_128_0 := by
  after_results_simp
theorem host1_v29 : StableHlo.after (hostOps1 (F := F)) W (Proc.devRef .tc main_v29)
    = shapeCast S1x128 (W (Proc.devRef .tc main_arg8)) shapeCasts_S128_S1x128 := by
  after_results_simp
  rfl
theorem host1_v16 : StableHlo.after (hostOps1 (F := F)) W (Proc.devRef .tc main_v16) = W (Proc.devRef .tc main_v16) := by
  after_results_simp
theorem host1_v4 : StableHlo.after (hostOps1 (F := F)) W (Proc.devRef .tc main_v4) = W (Proc.devRef .tc main_v4) := by
  after_results_simp
theorem host1_arg1 : StableHlo.after (hostOps1 (F := F)) W (Proc.devRef .tc main_arg1) = W (Proc.devRef .tc main_arg1) := by
  after_results_simp
theorem host1_arg2 : StableHlo.after (hostOps1 (F := F)) W (Proc.devRef .tc main_arg2) = W (Proc.devRef .tc main_arg2) := by
  after_results_simp
theorem host1_arg6 : StableHlo.after (hostOps1 (F := F)) W (Proc.devRef .tc main_arg6) = W (Proc.devRef .tc main_arg6) := by
  after_results_simp
theorem host1_arg7 : StableHlo.after (hostOps1 (F := F)) W (Proc.devRef .tc main_arg7) = W (Proc.devRef .tc main_arg7) := by
  after_results_simp
theorem host1_arg10 : StableHlo.after (hostOps1 (F := F)) W (Proc.devRef .tc main_arg10) = W (Proc.devRef .tc main_arg10) := by
  after_results_simp

/-! ## After the second region -/

theorem host2_v48 : StableHlo.after (hostOps2 (F := F)) W (Proc.devRef .tc main_v48)
    = scoreOf (W (Proc.devRef .tc main_arg1)) (W (Proc.devRef .tc main_arg2)) (W (Proc.devRef .tc main_v30_0))
        (W (Proc.devRef .tc main_v30_1)) (W (Proc.devRef .tc main_arg10)) := by
  after_results_simp
  rfl

end Cert.KernelIdeal.HostRead

end
-- ==== Proof.SageRun.lean ====
/-
  The kernel program's result array, as one function of the argument arrays.

  The buffer contents are followed from the launch through the five segments: the host stretch that builds the
  degrees and the summed messages of the features; the first region, whose output ends holding the first layer's
  table; the host stretch that builds the summed messages of that table and cuts the scoring matrix in halves;
  the second region, whose outputs end holding the two half-score tables of the second layer; and the last host
  stretch, which looks the half-scores up by source and by destination and adds them and the bias.
-/
import proofs.«170008_j34797825032691_2_alg».proof.Proof.KernelIdealFrameP
import proofs.«170008_j34797825032691_2_alg».proof.Proof.SageBlocks
import proofs.«170008_j34797825032691_2_alg».proof.Proof.SageHost
import proofs.«170008_j34797825032691_2_alg».proof.Proof.LibKeepdims
import Idealize.ShloMosaic.Lib.ValueLayout

noncomputable section

namespace Cert.KernelIdeal.RunValue

open Idealize.ShloMosaic Idealize.ShloMosaic.TcCoe Idealize.SL.Sem Idealize.ShloMosaic.ValueIdx Idealize.ShloMosaic.StableHlo
open Cert.KernelIdeal Cert.KernelIdeal.Gen Cert.KernelIdeal.GenP Cert.KernelIdeal.Arr Cert.KernelIdeal.HostRead Cert.Sage

variable (m : (ℓ : Loc nD τ sig) → Buf (Elt Ideal) ℓ) (ρ : Dev nD → PrngReg)

/-- A vector turned into a column and read back as a vector is the vector. -/
theorem degOf_shapeCast (d : (⟨1, ![10000]⟩ : Shape).Idx → EReal) (h : (⟨1, ![10000]⟩ : Shape).ShapeCasts ⟨2, ![10000, 1]⟩) :
    degOf (shapeCast S10000x1 d h) = d := by
  funext i
  obtain ⟨p, rfl⟩ : ∃ p : Fin 10000, i = ix1 p := ⟨i 0, eq_ix1 i⟩
  exact LibKeepdims.shapeCast_a_a1_apply d h p 0

/-- A vector turned into a row and read back as a vector is the vector. -/
theorem biasOf_shapeCast (b : (⟨1, ![128]⟩ : Shape).Idx → EReal) (h : (⟨1, ![128]⟩ : Shape).ShapeCasts ⟨2, ![1, 128]⟩) :
    biasOf (shapeCast S1x128 b h) = b := by
  funext i
  obtain ⟨q, rfl⟩ : ∃ q : Fin 128, i = ix1 q := ⟨i 0, eq_ix1 i⟩
  exact shapeCast_a_1a_apply b h 0 q

/-- The first layer's table, of the features, the two vectors of node numbers, the weights and the bias. -/
def h1A (x0 : (⟨S10000x128, .f32⟩ : BufTy).Contents (Elt Ideal)) (x1 x2 : (⟨S640000, .i32⟩ : BufTy).Contents (Elt Ideal))
    (x3 x4 : (⟨S128x128, .f32⟩ : BufTy).Contents (Elt Ideal)) (x5 : (⟨S128, .f32⟩ : BufTy).Contents (Elt Ideal)) : S10000x128.Idx → EReal :=
  hidden1 x0 (msgOf x1 x2 x0) (degOfEdges x2) x3 x4 x5

/-- The second layer's table. -/
def h2A (x0 : (⟨S10000x128, .f32⟩ : BufTy).Contents (Elt Ideal)) (x1 x2 : (⟨S640000, .i32⟩ : BufTy).Contents (Elt Ideal))
    (x3 x4 : (⟨S128x128, .f32⟩ : BufTy).Contents (Elt Ideal)) (x5 : (⟨S128, .f32⟩ : BufTy).Contents (Elt Ideal))
    (x6 x7 : (⟨S128x128, .f32⟩ : BufTy).Contents (Elt Ideal)) (x8 : (⟨S128, .f32⟩ : BufTy).Contents (Elt Ideal)) : S10000x128.Idx → EReal :=
  hidden2 (h1A x0 x1 x2 x3 x4 x5) (msgOf x1 x2 (h1A x0 x1 x2 x3 x4 x5)) (degOfEdges x2) x6 x7 x8

/-- The edge scores: the two half-score tables of the second layer, looked up by source and by destination, added, plus
    the scorer's bias. -/
def resultA (x0 : (⟨S10000x128, .f32⟩ : BufTy).Contents (Elt Ideal)) (x1 x2 : (⟨S640000, .i32⟩ : BufTy).Contents (Elt Ideal))
    (x3 x4 : (⟨S128x128, .f32⟩ : BufTy).Contents (Elt Ideal)) (x5 : (⟨S128, .f32⟩ : BufTy).Contents (Elt Ideal))
    (x6 x7 : (⟨S128x128, .f32⟩ : BufTy).Contents (Elt Ideal)) (x8 : (⟨S128, .f32⟩ : BufTy).Contents (Elt Ideal))
    (x9 : (⟨S256x2, .f32⟩ : BufTy).Contents (Elt Ideal)) (x10 : (⟨S2, .f32⟩ : BufTy).Contents (Elt Ideal)) : S640000x2.Idx → EReal :=
  scoreOf x1 x2
    (halfScore (h2A x0 x1 x2 x3 x4 x5 x6 x7 x8) (extractStridedSlice S128x2 ![0, 0] x9 slices_S256x2_S128x2_0_0))
    (halfScore (h2A x0 x1 x2 x3 x4 x5 x6 x7 x8) (extractStridedSlice S128x2 ![128, 0] x9 slices_S256x2_S128x2_128_0))
    x10

/-- The first layer's table of core `c`'s argument arrays. -/
def h1 (c : Dev nD) : S10000x128.Idx → EReal :=
  h1A (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- The second layer's table of core `c`'s argument arrays. -/
def h2 (c : Dev nD) : S10000x128.Idx → EReal :=
  h2A (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

theorem h2_eq (c : Dev nD) : h2 m c = hidden2 (h1 m c) (msgOf (m ((c : Thread nD τ).loc main_arg1)) (m ((c : Thread nD τ).loc main_arg2)) (h1 m c)) (degOfEdges (m ((c : Thread nD τ).loc main_arg2))) (m ((c : Thread nD τ).loc main_arg6)) (m ((c : Thread nD τ).loc main_arg7)) (m ((c : Thread nD τ).loc main_arg8)) := rfl

/-! ## At the first region's entry -/

theorem e1_arg0 (c : Dev nD) : V1 m ρ c main_arg0 = (m ((c : Thread nD τ).loc main_arg0)) := host0_arg0 (W0 m ρ c)
theorem e1_arg3 (c : Dev nD) : V1 m ρ c main_arg3 = (m ((c : Thread nD τ).loc main_arg3)) := host0_arg3 (W0 m ρ c)
theorem e1_arg4 (c : Dev nD) : V1 m ρ c main_arg4 = (m ((c : Thread nD τ).loc main_arg4)) := host0_arg4 (W0 m ρ c)
theorem e1_v14 (c : Dev nD) : V1 m ρ c main_v14 = msgOf (m ((c : Thread nD τ).loc main_arg1)) (m ((c : Thread nD τ).loc main_arg2)) (m ((c : Thread nD τ).loc main_arg0)) := host0_v14 (W0 m ρ c)
theorem e1_v4 (c : Dev nD) : V1 m ρ c main_v4 = shapeCast S10000x1 (degOfEdges (m ((c : Thread nD τ).loc main_arg2))) shapeCasts_S10000_S10000x1 :=
  host0_v4 (W0 m ρ c)
theorem e1_v15 (c : Dev nD) : V1 m ρ c main_v15 = shapeCast S1x128 (m ((c : Thread nD τ).loc main_arg5)) shapeCasts_S128_S1x128 := host0_v15 (W0 m ρ c)

/-- The first region's function of what it finds is the first layer's table of the arguments. -/
theorem G0_V1 (c : Dev nD) : G0 (V1 m ρ) c = h1 m c := by
  unfold G0 h1 h1A
  rw [e1_arg0, e1_arg3, e1_arg4, e1_v14, e1_v4, e1_v15, degOf_shapeCast, biasOf_shapeCast]

/-! ## At the first region's exit -/

theorem e2_v16 (c : Dev nD) : W2 m ρ c (Proc.devRef .tc main_v16) = h1 m c :=
  (W2_arr m ρ c 6).trans ((arr0 (V1 m ρ) c).trans (G0_V1 m ρ c))
theorem e2_v4 (c : Dev nD) : W2 m ρ c (Proc.devRef .tc main_v4) = shapeCast S10000x1 (degOfEdges (m ((c : Thread nD τ).loc main_arg2))) shapeCasts_S10000_S10000x1 :=
  (W2_arr m ρ c 2).trans ((((dat0 (V1 m ρ) c).arrAt_in 2 rfl _).trans (A_eq0 (V1 m ρ) c 2)).trans (e1_v4 m ρ c))
theorem e2_arg1 (c : Dev nD) : W2 m ρ c (Proc.devRef .tc main_arg1) = (m ((c : Thread nD τ).loc main_arg1)) :=
  (W2_of_ne m ρ c main_arg1 (by decide)).trans (host0_arg1 (W0 m ρ c))
theorem e2_arg2 (c : Dev nD) : W2 m ρ c (Proc.devRef .tc main_arg2) = (m ((c : Thread nD τ).loc main_arg2)) :=
  (W2_of_ne m ρ c main_arg2 (by decide)).trans (host0_arg2 (W0 m ρ c))
theorem e2_arg6 (c : Dev nD) : W2 m ρ c (Proc.devRef .tc main_arg6) = (m ((c : Thread nD τ).loc main_arg6)) :=
  (W2_of_ne m ρ c main_arg6 (by decide)).trans (host0_arg6 (W0 m ρ c))
theorem e2_arg7 (c : Dev nD) : W2 m ρ c (Proc.devRef .tc main_arg7) = (m ((c : Thread nD τ).loc main_arg7)) :=
  (W2_of_ne m ρ c main_arg7 (by decide)).trans (host0_arg7 (W0 m ρ c))
theorem e2_arg8 (c : Dev nD) : W2 m ρ c (Proc.devRef .tc main_arg8) = (m ((c : Thread nD τ).loc main_arg8)) :=
  (W2_of_ne m ρ c main_arg8 (by decide)).trans (host0_arg8 (W0 m ρ c))
theorem e2_arg9 (c : Dev nD) : W2 m ρ c (Proc.devRef .tc main_arg9) = (m ((c : Thread nD τ).loc main_arg9)) :=
  (W2_of_ne m ρ c main_arg9 (by decide)).trans (host0_arg9 (W0 m ρ c))
theorem e2_arg10 (c : Dev nD) : W2 m ρ c (Proc.devRef .tc main_arg10) = (m ((c : Thread nD τ).loc main_arg10)) :=
  (W2_of_ne m ρ c main_arg10 (by decide)).trans (host0_arg10 (W0 m ρ c))

/-! ## At the second region's entry -/

theorem e3_v16 (c : Dev nD) : V3 m ρ c main_v16 = h1 m c := (host1_v16 (W2 m ρ c)).trans (e2_v16 m ρ c)
theorem e3_v4 (c : Dev nD) : V3 m ρ c main_v4 = shapeCast S10000x1 (degOfEdges (m ((c : Thread nD τ).loc main_arg2))) shapeCasts_S10000_S10000x1 :=
  (host1_v4 (W2 m ρ c)).trans (e2_v4 m ρ c)
theorem e3_arg6 (c : Dev nD) : V3 m ρ c main_arg6 = (m ((c : Thread nD τ).loc main_arg6)) := (host1_arg6 (W2 m ρ c)).trans (e2_arg6 m ρ c)
theorem e3_arg7 (c : Dev nD) : V3 m ρ c main_arg7 = (m ((c : Thread nD τ).loc main_arg7)) := (host1_arg7 (W2 m ρ c)).trans (e2_arg7 m ρ c)
theorem e3_v26 (c : Dev nD) : V3 m ρ c main_v26 = msgOf (m ((c : Thread nD τ).loc main_arg1)) (m ((c : Thread nD τ).loc main_arg2)) (h1 m c) :=
  (host1_v26 (W2 m ρ c)).trans (by rw [e2_arg1, e2_arg2, e2_v16])
theorem e3_v27 (c : Dev nD) : V3 m ρ c main_v27 = extractStridedSlice S128x2 ![0, 0] (m ((c : Thread nD τ).loc main_arg9)) slices_S256x2_S128x2_0_0 :=
  (host1_v27 (W2 m ρ c)).trans (by rw [e2_arg9])
theorem e3_v28 (c : Dev nD) : V3 m ρ c main_v28 = extractStridedSlice S128x2 ![128, 0] (m ((c : Thread nD τ).loc main_arg9)) slices_S256x2_S128x2_128_0 :=
  (host1_v28 (W2 m ρ c)).trans (by rw [e2_arg9])
theorem e3_v29 (c : Dev nD) : V3 m ρ c main_v29 = shapeCast S1x128 (m ((c : Thread nD τ).loc main_arg8)) shapeCasts_S128_S1x128 :=
  (host1_v29 (W2 m ρ c)).trans (by rw [e2_arg8])

/-- The second region's table of what it finds is the second layer's table of the arguments. -/
theorem H2_V3 (c : Dev nD) : H2 (V3 m ρ) c = h2 m c := by
  rw [h2_eq]
  unfold H2
  rw [e3_v16, e3_v26, e3_v4, e3_arg6, e3_arg7, e3_v29, degOf_shapeCast, biasOf_shapeCast]

/-! ## At the second region's exit -/

theorem e4_v30_0 (c : Dev nD) : W4 m ρ c (Proc.devRef .tc main_v30_0)
    = halfScore (h2 m c) (extractStridedSlice S128x2 ![0, 0] (m ((c : Thread nD τ).loc main_arg9)) slices_S256x2_S128x2_0_0) :=
  (W4_arr m ρ c 8).trans ((arr1_8 (V3 m ρ) c).trans (by unfold G1_8; rw [H2_V3, e3_v27]))
theorem e4_v30_1 (c : Dev nD) : W4 m ρ c (Proc.devRef .tc main_v30_1)
    = halfScore (h2 m c) (extractStridedSlice S128x2 ![128, 0] (m ((c : Thread nD τ).loc main_arg9)) slices_S256x2_S128x2_128_0) :=
  (W4_arr m ρ c 9).trans ((arr1_9 (V3 m ρ) c).trans (by unfold G1_9; rw [H2_V3, e3_v28]))
theorem e4_arg1 (c : Dev nD) : W4 m ρ c (Proc.devRef .tc main_arg1) = (m ((c : Thread nD τ).loc main_arg1)) :=
  (W4_of_ne m ρ c main_arg1 (by decide)).trans ((host1_arg1 (W2 m ρ c)).trans (e2_arg1 m ρ c))
theorem e4_arg2 (c : Dev nD) : W4 m ρ c (Proc.devRef .tc main_arg2) = (m ((c : Thread nD τ).loc main_arg2)) :=
  (W4_of_ne m ρ c main_arg2 (by decide)).trans ((host1_arg2 (W2 m ρ c)).trans (e2_arg2 m ρ c))
theorem e4_arg10 (c : Dev nD) : W4 m ρ c (Proc.devRef .tc main_arg10) = (m ((c : Thread nD τ).loc main_arg10)) :=
  (W4_of_ne m ρ c main_arg10 (by decide)).trans ((host1_arg10 (W2 m ρ c)).trans (e2_arg10 m ρ c))

/-! ## At the return -/

/-- The result array of the kernel program, of core `c`'s argument arrays. -/
def result (c : Dev nD) : S640000x2.Idx → EReal :=
  resultA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

theorem result_eq (c : Dev nD) : result m c = scoreOf (m ((c : Thread nD τ).loc main_arg1)) (m ((c : Thread nD τ).loc main_arg2))
    (halfScore (h2 m c) (extractStridedSlice S128x2 ![0, 0] (m ((c : Thread nD τ).loc main_arg9)) slices_S256x2_S128x2_0_0))
    (halfScore (h2 m c) (extractStridedSlice S128x2 ![128, 0] (m ((c : Thread nD τ).loc main_arg9)) slices_S256x2_S128x2_128_0))
    (m ((c : Thread nD τ).loc main_arg10)) := rfl

theorem e5 (c : Dev nD) : W5 m ρ c (Proc.devRef .tc main_v48) = result m c :=
  (host2_v48 (W4 m ρ c)).trans (by rw [result_eq, e4_arg1, e4_arg2, e4_arg10, e4_v30_0, e4_v30_1])

/-- THE RUN, READ: every weakly fair execution terminates with the result array at `result` and the arguments as launched. -/
theorem run : θ_run defs (onTc (τ := τ) (main (F := Ideal))) ⟨m, fun _ => 0, ρ⟩ (fun r => ∀ c : Dev nD,
      r.2.mem ((c.tc : Thread nD τ).loc main_v48) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c).1.trans (e5 m ρ c), (h c).2⟩) (run_result (F := Ideal) m ρ)

end Cert.KernelIdeal.RunValue

end
-- ==== Proof.LibRowGather.lean ====
/-
  A row gather read at an index.

  What `x[idx]` of a table `x : [N, D]` at a vector of row numbers lowers to: a gather with offset axis 1, collapsed
  axis 0, start index map [0] and slice sizes [1, D] over the row numbers as an `[E, 1]` array. The entry (e, j) of the
  result is the table's entry (r, j), where r is the row number `idx[e, 0]` read as a signed integer and clamped into
  [0, N − 1]: the column passes through, the row is looked up.
-/
import Idealize.ShloMosaic.Lib.ValueIdx

noncomputable section

namespace Idealize.ShloMosaic.RowGather

open Idealize.ShloMosaic Idealize.ShloMosaic.ValueIdx

variable {α : Type}

/-- The dimension numbers of a row gather: table `[N, D]`, row numbers `[E, 1]`, result `[E, D]`. -/
abbrev rowDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row a row number selects: read signed, clamped into `[0, N − 1]`. -/
abbrev rowOf {N w : Nat} (hN : 0 < N) (b : BitVec w) : Fin N := ⟨min b.toInt.toNat (N - 1), by omega⟩

/-- THE ROW GATHER READ AT `(e, j)`: the table at the selected row and the same column. -/
theorem rowGather_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (j : Fin D) :
    Host.gather (rowDims N E D wf) x idx (ix2 e j) = x (ix2 (rowOf hN (idx (ix2 e (0 : Fin 1)))) j) := by
  unfold Host.gather
  congr 1
  funext a
  refine Fin.ext ?_
  match a with
  | ⟨0, _⟩ =>
    show (rowDims N E D wf).start (ix2 e j) idx 0 + (rowDims N E D wf).batchCoord (ix2 e j) 0
      + (rowDims N E D wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N E D wf).startIndexMap from List.mem_singleton.mpr rfl)]
    have hsi : (rowDims N E D wf).siIdx (ix2 e j) ⟨List.idxOf (0 : Fin 2) (rowDims N E D wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N E D wf).start (ix2 e j) idx 1 + (rowDims N E D wf).batchCoord (ix2 e j) 1
      + (rowDims N E D wf).offCoord (ix2 e j) 1 = j.val
    rw [GatherDims.batchCoord_eq_zero _ _ _ List.not_mem_nil]
    unfold GatherDims.start
    rw [dif_neg (show (1 : Fin 2) ∉ (rowDims N E D wf).startIndexMap from fun h =>
      absurd (show (1 : Nat) = 0 from congrArg Fin.val (List.mem_singleton.mp h)) (by decide))]
    simp only [Nat.add_zero, Nat.zero_add]
    rfl

end Idealize.ShloMosaic.RowGather

end
-- ==== Proof.SageRef.lean ====
/-
  The reference program read as the graph network's functions.

  Its first activation table is the first layer of the features and of its own summed messages and degrees; its
  second table is the second layer of that; its result is the score of the joined rows — the [640000, 256] table
  whose row e is the second layer's row of e's source node followed by the row of e's destination node, where a
  node number is read signed and clamped into [0, 9999] as the row lookup does. Each host product is the plain sum
  over the shared axis, each broadcast reads the one entry it spreads.
-/
import proofs.«170008_j34797825032691_2_alg».proof.Proof.Gen.ReferenceIdeal.Read
import proofs.«170008_j34797825032691_2_alg».proof.Proof.SageSpec
import proofs.«170008_j34797825032691_2_alg».proof.Proof.LibPlainDot
import proofs.«170008_j34797825032691_2_alg».proof.Proof.LibRowGather
import Idealize.ShloMosaic.Lib.Pipeline.Value
import Idealize.ShloMosaic.Lib.ValueIdx

noncomputable section

open scoped BigOperators

namespace Cert.ReferenceIdeal.RefValue

open Idealize.ShloMosaic Idealize.ShloMosaic.ValueIdx Idealize.ShloMosaic.RowGather
open Cert.ReferenceIdeal Cert.ReferenceIdeal.Gen Cert.ReferenceIdeal.Read Cert.Sage

variable (x0 : (⟨S10000x128, .f32⟩ : BufTy).Contents (Elt Ideal)) (x1 x2 : (⟨S640000, .i32⟩ : BufTy).Contents (Elt Ideal))
    (x3 x4 : (⟨S128x128, .f32⟩ : BufTy).Contents (Elt Ideal)) (x5 : (⟨S128, .f32⟩ : BufTy).Contents (Elt Ideal))
    (x6 x7 : (⟨S128x128, .f32⟩ : BufTy).Contents (Elt Ideal)) (x8 : (⟨S128, .f32⟩ : BufTy).Contents (Elt Ideal))
    (x9 : (⟨S256x2, .f32⟩ : BufTy).Contents (Elt Ideal)) (x10 : (⟨S2, .f32⟩ : BufTy).Contents (Elt Ideal))

/-- The reference's products are plain M×K by K×N products, and its lookups row gathers. -/
theorem dot_node : dot_S10000x128_S128x128_S10000x128_1_0_0_1_n_n = DotDims.plain 10000 128 128 := rfl
theorem dot_edge : dot_S640000x256_S256x2_S640000x2_1_0_0_1_n_n = DotDims.plain 640000 256 2 := rfl
theorem gather_rows : gather_S10000x128_S640000x1_S640000x128_1_0_n_n_0_1_1128
    = rowDims 10000 640000 128 gather_S10000x128_S640000x1_S640000x128_1_0_n_n_0_1_1128.wf := rfl

/-- The first layer's mean-aggregated entry. -/
theorem mean1_apply (p : Fin 10000) (k : Fin 128) :
    val_main_v19 (F := Ideal) x0 x1 x2 (ix2 p k)
      = Ideal.div (val_main_v10 (F := Ideal) x0 x1 x2 (ix2 p k))
          (max (val_main_v14 (F := Ideal) x2 (ix1 p)) (Ideal.ofBits .f32 0x3F800000#32)) := by
  have hi : idx_main_v17 (idx_main_v18 (ix2 p k)) = ix1 p := funext fun a => by match a with | ⟨0, _⟩ => rfl
  rw [val_main_v19_apply, val_main_v18_apply, val_main_v17_apply, val_main_v16_apply, val_main_v15_apply, val_main_cst_3_apply, hi]
  rfl

/-- The second layer's mean-aggregated entry. -/
theorem mean2_apply (p : Fin 10000) (k : Fin 128) :
    val_main_v45 (F := Ideal) x0 x1 x2 x3 x4 x5 (ix2 p k)
      = Ideal.div (val_main_v36 (F := Ideal) x0 x1 x2 x3 x4 x5 (ix2 p k))
          (max (val_main_v40 (F := Ideal) x2 (ix1 p)) (Ideal.ofBits .f32 0x3F800000#32)) := by
  have hi : idx_main_v43 (idx_main_v44 (ix2 p k)) = ix1 p := funext fun a => by match a with | ⟨0, _⟩ => rfl
  rw [val_main_v45_apply, val_main_v44_apply, val_main_v43_apply, val_main_v42_apply, val_main_v41_apply, val_main_cst_9_apply, hi]
  rfl

/-- The first bias row spread over the nodes. -/
theorem bias1_apply (p : Fin 10000) (q : Fin 128) : val_main_v23 (F := Ideal) x5 (ix2 p q) = x5 (ix1 q) := by
  have hi : idx_main_v22 (idx_main_v23 (ix2 p q)) = ix1 q := funext fun a => by match a with | ⟨0, _⟩ => rfl
  rw [val_main_v23_apply, val_main_v22_apply, hi]

/-- The second bias row spread over the nodes. -/
theorem bias2_apply (p : Fin 10000) (q : Fin 128) : val_main_v49 (F := Ideal) x8 (ix2 p q) = x8 (ix1 q) := by
  have hi : idx_main_v48 (idx_main_v49 (ix2 p q)) = ix1 q := funext fun a => by match a with | ⟨0, _⟩ => rfl
  rw [val_main_v49_apply, val_main_v48_apply, hi]

/-- The scorer's bias row spread over the edges. -/
theorem bias3_apply (e : Fin 640000) (c : Fin 2) : val_main_v68 (F := Ideal) x10 (ix2 e c) = x10 (ix1 c) := by
  have hi : idx_main_v67 (idx_main_v68 (ix2 e c)) = ix1 c := funext fun a => by match a with | ⟨0, _⟩ => rfl
  rw [val_main_v68_apply, val_main_v67_apply, hi]

/-- THE FIRST TABLE is the first layer of the features, the reference's own summed messages and its degrees. -/
theorem layer1_eq :
    val_main_v25 (F := Ideal) x0 x1 x2 x3 x4 x5
      = hidden1 x0 (val_main_v10 (F := Ideal) x0 x1 x2) (val_main_v14 (F := Ideal) x2) x3 x4 x5 := by
  funext i
  obtain ⟨p, q, rfl⟩ : ∃ (p : Fin 10000) (q : Fin 128), i = ix2 p q := ⟨i 0, i 1, eq_ix2 i⟩
  rw [hidden1_apply]
  unfold hidden1At combine
  rw [val_main_v25_apply, val_main_v24_apply, val_main_v21_apply, val_main_call0_v0_apply, val_main_call0_cst_apply, bias1_apply]
  refine congrArg₂ max (congrArg₂ (· + ·) (congrArg₂ (· + ·) ?_ ?_) rfl) rfl
  · unfold val_main_v0
    rw [dot_node]
    exact PlainDot.dotGeneral_apply 10000 128 128 none _ x0 x3 p q
  · unfold val_main_v20
    rw [dot_node]
    refine (PlainDot.dotGeneral_apply 10000 128 128 none _ _ x4 p q).trans (Finset.sum_congr rfl fun k _ => ?_)
    rw [mean1_apply]

/-- THE SECOND TABLE is the second layer of the first table, its summed messages and the degrees. -/
theorem layer2_eq :
    val_main_v50 (F := Ideal) x0 x1 x2 x3 x4 x5 x6 x7 x8
      = hidden2 (val_main_v25 (F := Ideal) x0 x1 x2 x3 x4 x5) (val_main_v36 (F := Ideal) x0 x1 x2 x3 x4 x5)
          (val_main_v40 (F := Ideal) x2) x6 x7 x8 := by
  funext i
  obtain ⟨p, q, rfl⟩ : ∃ (p : Fin 10000) (q : Fin 128), i = ix2 p q := ⟨i 0, i 1, eq_ix2 i⟩
  rw [hidden2_apply]
  unfold hidden2At combine
  rw [val_main_v50_apply, val_main_v47_apply, bias2_apply]
  refine congrArg₂ (· + ·) (congrArg₂ (· + ·) ?_ ?_) rfl
  · unfold val_main_v26
    rw [dot_node]
    exact PlainDot.dotGeneral_apply 10000 128 128 none _ _ x6 p q
  · unfold val_main_v46
    rw [dot_node]
    refine (PlainDot.dotGeneral_apply 10000 128 128 none _ _ x7 p q).trans (Finset.sum_congr rfl fun k _ => ?_)
    rw [mean2_apply]

/-- The node a source number selects, and the node a destination number selects. -/
abbrev srcRow (e : Fin 640000) : Fin 10000 := rowOf (N := 10000) (by decide) (val_main_v56 (F := Ideal) x1 (ix2 e (0 : Fin 1)))
abbrev dstRow (e : Fin 640000) : Fin 10000 := rowOf (N := 10000) (by decide) (val_main_v63 (F := Ideal) x2 (ix2 e (0 : Fin 1)))

/-- The joined table's first 128 columns: the source node's row of the second table. -/
theorem joined_left (e : Fin 640000) (k : Fin 128) :
    val_main_v65 (F := Ideal) x0 x1 x2 x3 x4 x5 x6 x7 x8 (ix2 e ⟨k.val, by omega⟩)
      = val_main_v50 (F := Ideal) x0 x1 x2 x3 x4 x5 x6 x7 x8 (ix2 (srcRow x1 e) k) := by
  unfold val_main_v65
  refine (concatenate_pair_apply_left (t := S640000x256) (s₁ := S640000x128) (s₂ := S640000x128) 1 _ _ _
    (ix2 e (⟨k.val, by omega⟩ : Fin 256)) rfl (ix2 e k) (fun b => ?_)).trans ?_
  · match b with
    | ⟨0, _⟩ => rfl
    | ⟨1, _⟩ => rfl
  · unfold val_main_v57
    rw [gather_rows]
    exact rowGather_apply (by decide) _ _ _ e k

/-- The joined table's last 128 columns: the destination node's row of the second table. -/
theorem joined_right (e : Fin 640000) (k : Fin 128) :
    val_main_v65 (F := Ideal) x0 x1 x2 x3 x4 x5 x6 x7 x8 (ix2 e ⟨128 + k.val, by omega⟩)
      = val_main_v50 (F := Ideal) x0 x1 x2 x3 x4 x5 x6 x7 x8 (ix2 (dstRow x2 e) k) := by
  unfold val_main_v65
  refine (concatenate_pair_apply_right (t := S640000x256) (s₁ := S640000x128) (s₂ := S640000x128) 1 _ _ _
    (ix2 e (⟨128 + k.val, by omega⟩ : Fin 256)) rfl rfl (ix2 e k) (fun b hb => ?_) ?_).trans ?_
  · match b with
    | ⟨0, _⟩ => rfl
    | ⟨1, _⟩ => exact absurd rfl hb
  · show k.val + 128 = 128 + k.val
    omega
  · unfold val_main_v64
    rw [gather_rows]
    exact rowGather_apply (by decide) _ _ _ e k

/-- THE RESULT is the score of the joined table. -/
theorem result_eq :
    val_main_v69 (F := Ideal) x0 x1 x2 x3 x4 x5 x6 x7 x8 x9 x10
      = scoreOfJoined (val_main_v65 (F := Ideal) x0 x1 x2 x3 x4 x5 x6 x7 x8) x9 x10 := by
  funext i
  obtain ⟨e, c, rfl⟩ : ∃ (e : Fin 640000) (c : Fin 2), i = ix2 e c := ⟨i 0, i 1, eq_ix2 i⟩
  show _ = (∑ k : Fin 256, val_main_v65 (F := Ideal) x0 x1 x2 x3 x4 x5 x6 x7 x8 (ix2 e k) * x9 (ix2 k c)) + x10 (ix1 c)
  rw [val_main_v69_apply, bias3_apply]
  refine congrArg₂ (· + ·) ?_ rfl
  unfold val_main_v66
  rw [dot_edge]
  exact PlainDot.dotGeneral_apply 640000 256 2 none _ _ x9 e c

end Cert.ReferenceIdeal.RefValue

end
-- ==== Proof.SageBridge.lean ====
/-
  The two programs compute one function.

  The reference's tables are the kernel program's: its summed messages and degrees are the same scatter-adds of the
  same gathers, so its first and second activation tables are the first and second layer's tables the kernel
  program builds in its two regions. Its result scores the joined rows; the kernel program adds two looked-up
  half-scores. These agree by the splitting of the sum over the 256 joined coordinates (`Cert.Sage.score_eq`): the
  joined table's halves are the source's and the destination's rows, the half matrices are the top and the bottom
  of the scoring matrix, and both programs select a node from a node number in the same way.
-/
import proofs.«170008_j34797825032691_2_alg».proof.Proof.SageRun
import proofs.«170008_j34797825032691_2_alg».proof.Proof.SageRef
import proofs.«170008_j34797825032691_2_alg».proof.Proof.LibRowGather
import Idealize.ShloMosaic.Lib.ValueLayout
import Idealize.ShloMosaic.Lib.Pipeline.Value

noncomputable section

open scoped BigOperators

namespace Cert.Bridge

open Idealize.ShloMosaic Idealize.ShloMosaic.TcCoe Idealize.SL.Sem Idealize.ShloMosaic.ValueIdx Idealize.ShloMosaic.RowGather
open Cert.Sage Cert.KernelIdeal.HostRead Cert.KernelIdeal.RunValue Cert.ReferenceIdeal.RefValue Cert.ReferenceIdeal.Read

variable (x0 : (⟨Cert.KernelIdeal.S10000x128, .f32⟩ : BufTy).Contents (Elt Ideal))
    (x1 x2 : (⟨Cert.KernelIdeal.S640000, .i32⟩ : BufTy).Contents (Elt Ideal))
    (x3 x4 : (⟨Cert.KernelIdeal.S128x128, .f32⟩ : BufTy).Contents (Elt Ideal)) (x5 : (⟨Cert.KernelIdeal.S128, .f32⟩ : BufTy).Contents (Elt Ideal))
    (x6 x7 : (⟨Cert.KernelIdeal.S128x128, .f32⟩ : BufTy).Contents (Elt Ideal)) (x8 : (⟨Cert.KernelIdeal.S128, .f32⟩ : BufTy).Contents (Elt Ideal))
    (x9 : (⟨Cert.KernelIdeal.S256x2, .f32⟩ : BufTy).Contents (Elt Ideal)) (x10 : (⟨Cert.KernelIdeal.S2, .f32⟩ : BufTy).Contents (Elt Ideal))

/-- The half-score lookups are row gathers. -/
theorem gather_scores : Cert.KernelIdeal.gather_S10000x2_S640000x1_S640000x2_1_0_n_n_0_1_12
    = rowDims 10000 640000 2 Cert.KernelIdeal.gather_S10000x2_S640000x1_S640000x2_1_0_n_n_0_1_12.wf := rfl

/-- The node a node number selects in the kernel program's lookups. -/
abbrev rowK (a : (⟨Cert.KernelIdeal.S640000, .i32⟩ : BufTy).Contents (Elt Ideal)) (e : Fin 640000) : Fin 10000 :=
  rowOf (N := 10000) (by decide) (rowIdx (F := Ideal) a (ix2 e (0 : Fin 1)))

/-- The kernel program's last stretch, index by index: the two half-scores looked up and added, plus the bias. -/
theorem scoreOf_eq (ps pd : (⟨Cert.KernelIdeal.S10000x2, .f32⟩ : BufTy).Contents (Elt Ideal)) :
    scoreOf (F := Ideal) x1 x2 ps pd x10 = scoreOfHalves ps pd x10 (rowK x1) (rowK x2) := by
  funext i
  obtain ⟨e, c, rfl⟩ : ∃ (e : Fin 640000) (c : Fin 2), i = ix2 e c := ⟨i 0, i 1, eq_ix2 i⟩
  show (Host.gather Cert.KernelIdeal.gather_S10000x2_S640000x1_S640000x2_1_0_n_n_0_1_12 ps (rowIdx (F := Ideal) x1) (ix2 e c)
      + Host.gather Cert.KernelIdeal.gather_S10000x2_S640000x1_S640000x2_1_0_n_n_0_1_12 pd (rowIdx (F := Ideal) x2) (ix2 e c))
      + broadcastInDim Cert.KernelIdeal.S640000x2 ![0, 1] Cert.KernelIdeal.Gen.bcast_S1x2_S640000x2_0_1
          (broadcastInDim Cert.KernelIdeal.S1x2 ![1] Cert.KernelIdeal.Gen.bcast_S2_S1x2_1 x10) (ix2 e c)
    = (ps (ix2 (rowK x1 e) c) + pd (ix2 (rowK x2 e) c)) + x10 (ix1 c)
  refine congrArg₂ (· + ·) (congrArg₂ (· + ·) ?_ ?_) ?_
  · rw [gather_scores]
    exact rowGather_apply (by decide) _ ps _ e c
  · rw [gather_scores]
    exact rowGather_apply (by decide) _ pd _ e c
  · refine (broadcastInDim_apply _ Cert.KernelIdeal.Gen.bcast_S1x2_S640000x2_0_1 _ (ix2 e c) (ix2 (0 : Fin 1) c) (fun a => ?_)).trans
      (broadcastInDim_apply _ Cert.KernelIdeal.Gen.bcast_S2_S1x2_1 x10 (ix2 (0 : Fin 1) c) (ix1 c) (fun a => ?_))
    · match a with
      | ⟨0, _⟩ => rfl
      | ⟨1, _⟩ => rfl
    · match a with
      | ⟨0, _⟩ => rfl

/-- The reference's summed messages, degrees and node selection are the kernel program's: the same operations. -/
theorem msg1_eq : val_main_v10 (F := Ideal) x0 x1 x2 = msgOf x1 x2 x0 := rfl
theorem deg1_eq : val_main_v14 (F := Ideal) x2 = degOfEdges x2 := rfl
theorem msg2_eq : val_main_v36 (F := Ideal) x0 x1 x2 x3 x4 x5 = msgOf x1 x2 (val_main_v25 (F := Ideal) x0 x1 x2 x3 x4 x5) := rfl
theorem deg2_eq : val_main_v40 (F := Ideal) x2 = degOfEdges x2 := rfl
theorem rows_src : val_main_v56 (F := Ideal) x1 = rowIdx (F := Ideal) x1 := rfl
theorem rows_dst : val_main_v63 (F := Ideal) x2 = rowIdx (F := Ideal) x2 := rfl

theorem srcRow_eq : srcRow x1 = rowK x1 := by
  funext e
  show rowOf (N := 10000) _ (val_main_v56 (F := Ideal) x1 (ix2 e (0 : Fin 1))) = rowOf (N := 10000) _ (rowIdx (F := Ideal) x1 (ix2 e (0 : Fin 1)))
  rw [rows_src]
theorem dstRow_eq : dstRow x2 = rowK x2 := by
  funext e
  show rowOf (N := 10000) _ (val_main_v63 (F := Ideal) x2 (ix2 e (0 : Fin 1))) = rowOf (N := 10000) _ (rowIdx (F := Ideal) x2 (ix2 e (0 : Fin 1)))
  rw [rows_dst]

/-- The reference's tables are the kernel program's. -/
theorem table1_eq : val_main_v25 (F := Ideal) x0 x1 x2 x3 x4 x5 = h1A x0 x1 x2 x3 x4 x5 := by
  rw [layer1_eq, msg1_eq, deg1_eq]
  rfl
theorem table2_eq : val_main_v50 (F := Ideal) x0 x1 x2 x3 x4 x5 x6 x7 x8 = h2A x0 x1 x2 x3 x4 x5 x6 x7 x8 := by
  rw [layer2_eq, msg2_eq, deg2_eq, table1_eq]
  rfl

set_option maxHeartbeats 4000000 in
/-- THE TWO RESULTS ARE ONE FUNCTION of the argument arrays. -/
theorem results_eq : val_main_v69 (F := Ideal) x0 x1 x2 x3 x4 x5 x6 x7 x8 x9 x10 = resultA x0 x1 x2 x3 x4 x5 x6 x7 x8 x9 x10 := by
  rw [Cert.ReferenceIdeal.RefValue.result_eq]
  unfold resultA
  rw [scoreOf_eq, ← table2_eq]
  refine score_eq (val_main_v50 (F := Ideal) x0 x1 x2 x3 x4 x5 x6 x7 x8) (val_main_v65 (F := Ideal) x0 x1 x2 x3 x4 x5 x6 x7 x8) x9
    (extractStridedSlice Cert.KernelIdeal.S128x2 ![0, 0] x9 Cert.KernelIdeal.Gen.slices_S256x2_S128x2_0_0)
    (extractStridedSlice Cert.KernelIdeal.S128x2 ![128, 0] x9 Cert.KernelIdeal.Gen.slices_S256x2_S128x2_128_0)
    x10 (rowK x1) (rowK x2) (fun e k => ?_) (fun e k => ?_) (fun k c => ?_) (fun k c => ?_)
  · rw [← srcRow_eq]
    exact joined_left x0 x1 x2 x3 x4 x5 x6 x7 x8 e k
  · rw [← dstRow_eq]
    exact joined_right x0 x1 x2 x3 x4 x5 x6 x7 x8 e k
  · exact slice2_axis0_apply 0 x9 Cert.KernelIdeal.Gen.slices_S256x2_S128x2_0_0 k c ⟨k.val, by omega⟩ (Nat.zero_add _).symm
  · exact slice2_axis0_apply 128 x9 Cert.KernelIdeal.Gen.slices_S256x2_S128x2_128_0 k c ⟨128 + k.val, by omega⟩ rfl

end Cert.Bridge

end
-- ==== Proof.lean ====
/-
  A two-layer mean-aggregating graph network with a linear edge scorer: the kernel program against its reference.

  The kernel program builds the degrees and the summed messages on the host, computes each layer's table in a
  TensorCore region over blocks of 2000 node rows, and — since the edge score is linear in the second layer's rows —
  computes in the second region the two per-node half-scores (the row against the top and against the bottom half
  of the scoring matrix) and only looks those up per edge. The reference gathers the 128-wide rows of both end
  nodes, joins them and multiplies by the whole scoring matrix. On the extended reals both are one function of the
  arguments: a sum over the 256 joined coordinates is the sum over the first 128 plus the sum over the last 128
  (`Cert.Sage.score_eq`), everything else is the same operations in the same order. No finiteness is used.

  The modules: SageSpec (the functions and the law), SagePayload (the two bodies' arithmetic at an index),
  SageBlocks (each region's output array as one function of the arrays it finds), SageHost (the three host
  stretches), SageRun (the kernel program's result array of its arguments), SageRef (the reference read as the same
  functions), SageBridge (the two results are equal). The three frames, the (empty) idealization ledger and the
  equality of results are assembled here.
-/
import proofs.«170008_j34797825032691_2_alg».proof.Defs
import proofs.«170008_j34797825032691_2_alg».proof.Proof.Gen.Kernel
import proofs.«170008_j34797825032691_2_alg».proof.Proof.Gen.KernelIdeal
import proofs.«170008_j34797825032691_2_alg».proof.Proof.Gen.ReferenceIdeal
import proofs.«170008_j34797825032691_2_alg».proof.Proof.Gen.ReferenceIdeal.Run
import proofs.«170008_j34797825032691_2_alg».proof.Proof.Gen.ReferenceIdeal.Read
import proofs.«170008_j34797825032691_2_alg».proof.Proof.Gen.Pre_finite_inputs
import proofs.«170008_j34797825032691_2_alg».proof.Proof.KernelFrameP
import proofs.«170008_j34797825032691_2_alg».proof.Proof.KernelIdealFrameP
import proofs.«170008_j34797825032691_2_alg».proof.Proof.SageRun
import proofs.«170008_j34797825032691_2_alg».proof.Proof.SageBridge
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.GenP.frame m ρ

/-- So does the kernel program read on the extended reals. -/
theorem frame_kernelIdeal : Cert.frame_KernelIdeal := fun m ρ _ => Cert.KernelIdeal.GenP.frame m ρ

/-- The reference runs and leaves its arguments as launched: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten when the kernel program was read on the extended reals. -/
theorem preserves : Cert.preserves_Kernel_KernelIdeal := trivial

/-- From memories that agree on the arguments both programs end with the edge scores `RunValue.result`: the kernel
    program by its run read segment by segment, the reference by its run and `Cert.Bridge.results_eq`. -/
theorem algebraic : Cert.algebraic_KernelIdeal_ReferenceIdeal := by
  intro m ρ m' ρ' _ hagree
  refine ⟨fun c => Cert.KernelIdeal.RunValue.result m c, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  rw [Cert.ReferenceIdeal.Read.val_main_v69_eq, h0, h1, h2, h3, h4, h5, h6, h7, h8, h9, h10]
  exact Cert.Bridge.results_eq _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
